-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x1024 : Shape := ⟨3, ![16, 1024, 1024]⟩
abbrev S1024x1024 : Shape := ⟨2, ![1024, 1024]⟩
abbrev S1024 : Shape := ⟨1, ![1024]⟩
abbrev S_ : Shape := ⟨0, ![]⟩

class Facts : Prop where
  bcast_S_S16x1024x1024 : S_.BroadcastsInDim S16x1024x1024 (![] : Fin 0 → Fin S16x1024x1024.rank)
  reducesTo_S16x1024x1024_S_d0_1_2 : S16x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S16x1024x1024 .f32) (main_arg1 : FVec F S16x1024x1024 .f32) (main_arg2 : FVec F S1024x1024 .f32) (main_arg3 : FVec F S1024 .f32) : IVec S_ 1 :=
  let main_v0 : FVec F S16x1024x1024 .f32 := Host.absf main_arg0
  let main_cst : FVec F S_ .f32 := constant S_ .f32 0x7F800000#32
  let main_v1 : FVec F S16x1024x1024 .f32 := broadcastInDim S16x1024x1024 ![] bcast_S_S16x1024x1024 main_cst
  let main_v2 : IVec S16x1024x1024 1 := cmpf .olt main_v0 main_v1
  let main_c : IVec S_ 1 := constantI S_ 1 1#1
  let main_v3 : IVec S_ 1 := (fun x v => Host.reduce IntOp.andi x v reducesTo_S16x1024x1024_S_d0_1_2 h_S_) main_v2 main_c
  let main_v4 : FVec F S16x1024x1024 .f32 := Host.absf main_arg1
  let main_cst_0 : FVec F S_ .f32 := constant S_ .f32 0x7F800000#32
  let main_v5 : FVec F S16x1024x1024 .f32 := broadcastInDim S16x1024x1024 ![] bcast_S_S16x1024x1024 main_cst_0
  let main_v6 : IVec S16x1024x1024 1 := cmpf .olt main_v4 main_v5
  let main_c_1 : IVec S_ 1 := constantI S_ 1 1#1
  let main_v7 : IVec S_ 1 := (fun x v => Host.reduce IntOp.andi x v reducesTo_S16x1024x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S16x1024x1024 : Shape := ⟨3, ![16, 1024, 1024]⟩
abbrev S1024x1024 : Shape := ⟨2, ![1024, 1024]⟩
abbrev S1024 : Shape := ⟨1, ![1024]⟩
abbrev S1x1024x1024 : Shape := ⟨3, ![1, 1024, 1024]⟩
abbrev S1x512x1024 : Shape := ⟨3, ![1, 512, 1024]⟩
abbrev S1024x1 : Shape := ⟨2, ![1024, 1]⟩
abbrev S512x1024 : Shape := ⟨2, ![512, 1024]⟩
abbrev S1x1024 : Shape := ⟨2, ![1, 1024]⟩
abbrev S1024x512 : Shape := ⟨2, ![1024, 512]⟩

abbrev nBuf : Space → Nat
  | .hbm => 8
  | .vmem => 10
  | .smem => 0
  | _ => 0

abbrev bufTy : (tb : Table) → Fin (tcTables nBuf tb) → BufTy
  | .hbm, ⟨0, _⟩ => ⟨S16x1024x1024, .f32⟩
  | .hbm, ⟨1, _⟩ => ⟨S16x1024x1024, .f32⟩
  | .hbm, ⟨2, _⟩ => ⟨S1024x1024, .f32⟩
  | .hbm, ⟨3, _⟩ => ⟨S1024, .f32⟩
  | .hbm, ⟨4, _⟩ => ⟨S16x1024x1024, .bf16⟩
  | .hbm, ⟨5, _⟩ => ⟨S16x1024x1024, .bf16⟩
  | .hbm, ⟨6, _⟩ => ⟨S1024x1024, .bf16⟩
  | .hbm, ⟨7, _⟩ => ⟨S16x1024x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1024x1024, .bf16⟩
  | .local _ .vmem, ⟨5, _⟩ => ⟨S1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1024x1, .f32⟩
  | .local _ .vmem, ⟨9, _⟩ => ⟨S1024x1, .f32⟩
  | _, _ => ⟨S16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x1024 : S1024x1.Broadcasts S1024x1024
  dot_S512x1024_S1024x1024_S512x1024_1_0_0_1_n_n_wf : DotDims.WF S512x1024 S1024x1024 S512x1024 [1] [0] [0] [1] [] []
  dot_S1024x1024_S512x1024_S1024x512_1_1_0_0_n_n_wf : DotDims.WF S1024x1024 S512x1024 S1024x512 [1] [1] [0] [0] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S16x1024x1024.size a
  hwx0_0 : ∀ i : grid0.Coords, EltTy.bits .bf16 = 32 ∨ (Rect.block (s := S16x1024x1024) S1x1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S16x1024x1024.size a
  hwx0_1 : ∀ i : grid0.Coords, EltTy.bits .bf16 = 32 ∨ (Rect.block (s := S16x1024x1024) S1x512x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1024.size a ≤ S16x1024x1024.size a
  hwx0_4 : ∀ i : grid0.Coords, EltTy.bits .f32 = 32 ∨ (Rect.block (s := S16x1024x1024) S1x1024x1024.size (cc0_transform_4 i) (hinb0_4 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x1024x1024 : Shape := ⟨3, ![16, 1024, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S16x1024 : Shape := ⟨2, ![16, 1024]⟩
abbrev S16x1024x1 : Shape := ⟨3, ![16, 1024, 1]⟩

abbrev nBuf : Space → Nat
  | .hbm => 27
  | .vmem => 0
  | .smem => 0
  | _ => 0

abbrev bufTy : (tb : Table) → Fin (tcTables nBuf tb) → BufTy
  | .hbm, ⟨0, _⟩ => ⟨S16x1024x1024, .f32⟩
  | .hbm, ⟨1, _⟩ => ⟨S16x1024x1024, .f32⟩
  | .hbm, ⟨2, _⟩ => ⟨S1024x1024, .f32⟩
  | .hbm, ⟨3, _⟩ => ⟨S1024, .f32⟩
  | .hbm, ⟨4, _⟩ => ⟨S16x1024x1024, .f32⟩
  | .hbm, ⟨5, _⟩ => ⟨S1x1x1024, .f32⟩
  | .hbm, ⟨6, _⟩ => ⟨S16x1024x1024, .f32⟩
  | .hbm, ⟨7, _⟩ => ⟨S16x1024x1024, .f32⟩
  | .hbm, ⟨8, _⟩ => ⟨S16x1024x1024, .f32⟩
  | .hbm, ⟨9, _⟩ => ⟨S_, .f32⟩
  | .hbm, ⟨10, _⟩ => ⟨S16x1024, .f32⟩
  | .hbm, ⟨11, _⟩ => ⟨S_, .f32⟩
  | .hbm, ⟨12, _⟩ => ⟨S16x1024, .f32⟩
  | .hbm, ⟨13, _⟩ => ⟨S16x1024, .f32⟩
  | .hbm, ⟨14, _⟩ => ⟨S16x1024x1, .f32⟩
  | .hbm, ⟨15, _⟩ => ⟨S16x1024x1024, .f32⟩
  | .hbm, ⟨16, _⟩ => ⟨S16x1024x1024, .f32⟩
  | .hbm, ⟨17, _⟩ => ⟨S16x1024x1024, .f32⟩
  | .hbm, ⟨18, _⟩ => ⟨S_, .f32⟩
  | .hbm, ⟨19, _⟩ => ⟨S16x1024, .f32⟩
  | .hbm, ⟨20, _⟩ => ⟨S16x1024x1, .f32⟩
  | .hbm, ⟨21, _⟩ => ⟨S16x1024x1024, .f32⟩
  | .hbm, ⟨22, _⟩ => ⟨S16x1024x1024, .f32⟩
  | .hbm, ⟨23, _⟩ => ⟨S16x1024x1024, .f32⟩
  | .hbm, ⟨24, _⟩ => ⟨S_, .f32⟩
  | .hbm, ⟨25, _⟩ => ⟨S16x1024x1024, .f32⟩
  | .hbm, ⟨26, _⟩ => ⟨S16x1024x1024, .f32⟩
  | _, _ => ⟨S16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_cst : Ref sig .tc := ⟨.hbm, 24, rfl⟩
abbrev main_call0_v0 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S16x1024x1024_0_1_2 : S1x1x1024.BroadcastsInDim S16x1024x1024 (![0, 1, 2] : Fin 3 → Fin S16x1024x1024.rank)
  reducesTo_S16x1024x1024_S16x1024_d2 : S16x1024x1024.ReducesTo [2] S16x1024
  h_S_ : 0 < S_.numel
  bcast_S_S16x1024 : S_.BroadcastsInDim S16x1024 (![] : Fin 0 → Fin S16x1024.rank)
  bcast_S16x1024_S16x1024x1_0_1 : S16x1024.BroadcastsInDim S16x1024x1 (![0, 1] : Fin 2 → Fin S16x1024x1.rank)
  bcast_S16x1024x1_S16x1024x1024_0_1_2 : S16x1024x1.BroadcastsInDim S16x1024x1024 (![0, 1, 2] : Fin 3 → Fin S16x1024x1024.rank)
  bcast_S_S16x1024x1024 : S_.BroadcastsInDim S16x1024x1024 (![] : Fin 0 → Fin S16x1024x1024.rank)
  dot_S16x1024x1024_S1024x1024_S16x1024x1024_2_0_01_1_n_n_wf : DotDims.WF S16x1024x1024 S1024x1024 S16x1024x1024 [2] [0] [0, 1] [1] [] []
  dot_S16x1024x1024_S16x1024x1024_S16x1024x1024_2_2_1_1_0_0_wf : DotDims.WF S16x1024x1024 S16x1024x1024 S16x1024x1024 [2] [2] [1] [1] [0] [0]
  dot_S16x1024x1024_S16x1024x1024_S16x1024x1024_2_1_1_2_0_0_wf : DotDims.WF S16x1024x1024 S16x1024x1024 S16x1024x1024 [2] [1] [1] [2] [0] [0]

variable [Facts₀]

def dot_S16x1024x1024_S1024x1024_S16x1024x1024_2_0_01_1_n_n : DotDims S16x1024x1024 S1024x1024 S16x1024x1024 where
  lhsContracting := [2]
  rhsContracting := [0]
  lhsNonContracting := [0, 1]
  rhsNonContracting := [1]
  lhsBatch := []
  rhsBatch := []
  wf := dot_S16x1024x1024_S1024x1024_S16x1024x1024_2_0_01_1_n_n_wf
def dot_S16x1024x1024_S16x1024x1024_S16x1024x1024_2_2_1_1_0_0 : DotDims S16x1024x1024 S16x1024x1024 S16x1024x1024 where
  lhsContracting := [2]
  rhsContracting := [2]
  lhsNonContracting := [1]
  rhsNonContracting := [1]
  lhsBatch := [0]
  rhsBatch := [0]
  wf := dot_S16x1024x1024_S16x1024x1024_S16x1024x1024_2_2_1_1_0_0_wf
def dot_S16x1024x1024_S16x1024x1024_S16x1024x1024_2_1_1_2_0_0 : DotDims S16x1024x1024 S16x1024x1024 S16x1024x1024 where
  lhsContracting := [2]
  rhsContracting := [1]
  lhsNonContracting := [1]
  rhsNonContracting := [2]
  lhsBatch := [0]
  rhsBatch := [0]
  wf := dot_S16x1024x1024_S16x1024x1024_S16x1024x1024_2_1_1_2_0_0_wf

class Facts : Prop extends Facts₀ where

variable [Facts]
-- ==== Proof.Pieces.lean ====
import proofs.«102071_j3822520893581_2_alg».proof.Proof.Gen.KernelIdeal.Frame
import Idealize.ShloMosaic.Lib.Pipeline.Value

set_option maxRecDepth 16384

noncomputable section

/-!
  What each control case of the body leaves behind, as the body's own arithmetic.

  At the first key block of a batch entry the body first stores −∞, 0 and the zero block into the running maximum, the
  running denominator and the output block, and every later load of those three buffers within the same body reads the
  last value stored there. At the second key block the body reads what the first left. In both cases each buffer ends
  holding the value of the LAST whole-buffer store made to it, a pure term of the input blocks (and, at the second key
  block, of what the first left); the last case's final division and max with 0 read back the block stored just before.
-/

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz1 : (![0] : Fin 1 → Nat) = fun _ => 0 := by funext a; fin_cases a; rfl
theorem hz2 : (![0, 0] : Fin 2 → Nat) = fun _ => 0 := by funext a; fin_cases a <;> rfl
theorem hz3 : (![0, 0, 0] : Fin 3 → Nat) = fun _ => 0 := by funext a; fin_cases a <;> rfl

/-- First key block: the running maximum ends at the larger of −∞ and the block's row maxima. -/
theorem max_first (c : Dev nD) (i : grid0.Coords) (arg2 : Memref sig .tc .vmem S1x1024x1024 .bf16) (harg2 : arg2.IsWhole) (arg3 : Memref sig .tc .vmem S1x512x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S1x1024x1024 .bf16) (x1 : Vec F S1x512x1024 .bf16) (x2 : Vec F S1024x1024 .bf16) (x3 : Vec F S1024 .f32) :
    sout0_A_0 c i arg2 harg2 arg3 harg3 arg4 harg4 arg5 harg5 arg6 harg6 arg7 harg7 arg8 harg8 hc0 hc1 x0 x1 x2 x3 = k0_pay2 (k0_pay9 x1 x2 x3 x0 k0_pay5) := by
  unfold sout0_A_0
  rw [View.read_writes_eq_canon _ _ _ (scover0_A_0 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero hz2]

  simp only [View.readAt_eq_ld, harg2.read_unread, harg3.read_unread, harg4.read_unread, harg5.read_unread,
    View.ld_unit_zero (S := S1x512x1024) hz3, View.ld_unit_zero (S := S1024x1024) hz2, View.ld_unit_zero (S := S1024) hz1,
    View.ld_unit_zero (S := S1x1024x1024) hz3, View.ld_unit_zero (S := S1024x1) hz2,
    View.readCov_unit_zero (S := S1024x1) _ hz2, View.readCov_unit_zero (S := S1x1024x1024) _ hz3, harg7.read_unread, harg8.read_unread, harg6.read_unread]
  try rfl

/-- First key block: the running denominator, from the initial −∞ and 0. -/
theorem den_first (c : Dev nD) (i : grid0.Coords) (arg2 : Memref sig .tc .vmem S1x1024x1024 .bf16) (harg2 : arg2.IsWhole) (arg3 : Memref sig .tc .vmem S1x512x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S1x1024x1024 .bf16) (x1 : Vec F S1x512x1024 .bf16) (x2 : Vec F S1024x1024 .bf16) (x3 : Vec F S1024 .f32) :
    sout0_A_1 c i arg2 harg2 arg3 harg3 arg4 harg4 arg5 harg5 arg6 harg6 arg7 harg7 arg8 harg8 hc0 hc1 x0 x1 x2 x3 = k0_pay12 x1 x2 x3 x0 k0_pay5 k0_pay6 := by
  unfold sout0_A_1
  rw [View.read_writes_eq_canon _ _ _ (scover0_A_1 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero hz2]

  simp only [View.readAt_eq_ld, harg2.read_unread, harg3.read_unread, harg4.read_unread, harg5.read_unread,
    View.ld_unit_zero (S := S1x512x1024) hz3, View.ld_unit_zero (S := S1024x1024) hz2, View.ld_unit_zero (S := S1024) hz1,
    View.ld_unit_zero (S := S1x1024x1024) hz3, View.ld_unit_zero (S := S1024x1) hz2,
    View.readCov_unit_zero (S := S1024x1) _ hz2, View.readCov_unit_zero (S := S1x1024x1024) _ hz3, harg7.read_unread, harg8.read_unread, harg6.read_unread]
  try rfl

/-- First key block: the output block, from the initial −∞ and the zero block. -/
theorem num_first (c : Dev nD) (i : grid0.Coords) (arg2 : Memref sig .tc .vmem S1x1024x1024 .bf16) (harg2 : arg2.IsWhole) (arg3 : Memref sig .tc .vmem S1x512x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S1x1024x1024 .bf16) (x1 : Vec F S1x512x1024 .bf16) (x2 : Vec F S1024x1024 .bf16) (x3 : Vec F S1024 .f32) :
    out0_A_4 c i arg2 harg2 arg3 harg3 arg4 harg4 arg5 harg5 arg6 harg6 arg7 harg7 arg8 harg8 hc0 hc1 x0 x1 x2 x3 = k0_pay1 (k0_pay7 x1) (k0_pay10 x1 x2 x3 x0 k0_pay5) (k0_pay13 x1 x2 x3 x0 k0_pay5) (constant S1024x1024 .f32 0x00000000#32) k0_pay4 := by
  unfold out0_A_4
  rw [View.read_writes_eq_canon _ _ _ (cover0_A_4 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero hz3]

  simp only [View.readAt_eq_ld, harg2.read_unread, harg3.read_unread, harg4.read_unread, harg5.read_unread,
    View.ld_unit_zero (S := S1x512x1024) hz3, View.ld_unit_zero (S := S1024x1024) hz2, View.ld_unit_zero (S := S1024) hz1,
    View.ld_unit_zero (S := S1x1024x1024) hz3, View.ld_unit_zero (S := S1024x1) hz2,
    View.readCov_unit_zero (S := S1024x1) _ hz2, View.readCov_unit_zero (S := S1x1024x1024) _ hz3, harg7.read_unread, harg8.read_unread, harg6.read_unread]
  try rfl

/-- Second key block: the running maximum, over what the first block left. -/
theorem max_second (c : Dev nD) (i : grid0.Coords) (arg2 : Memref sig .tc .vmem S1x1024x1024 .bf16) (harg2 : arg2.IsWhole) (arg3 : Memref sig .tc .vmem S1x512x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1x1024x1024 .bf16) (x1 : Vec F S1x512x1024 .bf16) (x2 : Vec F S1024x1024 .bf16) (x3 : Vec F S1024 .f32) (xo4 : Vec F S1x1024x1024 .f32) (xs0 : Vec F S1024x1 .f32) (xs1 : Vec F S1024x1 .f32) :
    sout0_B_0 c i arg2 harg2 arg3 harg3 arg4 harg4 arg5 harg5 arg6 harg6 arg7 harg7 arg8 harg8 hc0 hc1 x0 x1 x2 x3 xo4 xs0 xs1 = k0_pay2 (k0_pay9 x1 x2 x3 x0 xs0) := by
  unfold sout0_B_0
  rw [View.read_writes_eq_canon _ _ _ (scover0_B_0 c i arg2 harg2 arg3 harg3 arg4 harg4 arg5 harg5 arg6 harg6 arg7 harg7 arg8 harg8 hc0 hc1 x0 x1 x2 x3 xo4 xs0 xs1)]
  unfold kernelRun0_B
  dsimp only
  sl_unfold_words
  rw [View.canon_cons_unit_zero hz2]

  simp only [View.readAt_eq_ld, harg2.read_unread, harg3.read_unread, harg4.read_unread, harg5.read_unread,
    View.ld_unit_zero (S := S1x512x1024) hz3, View.ld_unit_zero (S := S1024x1024) hz2, View.ld_unit_zero (S := S1024) hz1,
    View.ld_unit_zero (S := S1x1024x1024) hz3, View.ld_unit_zero (S := S1024x1) hz2,
    View.readCov_unit_zero (S := S1024x1) _ hz2, View.readCov_unit_zero (S := S1x1024x1024) _ hz3, harg7.read_unread, harg8.read_unread, harg6.read_unread]
  try rfl

/-- Second key block: the running denominator, over what the first block left. -/
theorem den_second (c : Dev nD) (i : grid0.Coords) (arg2 : Memref sig .tc .vmem S1x1024x1024 .bf16) (harg2 : arg2.IsWhole) (arg3 : Memref sig .tc .vmem S1x512x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1x1024x1024 .bf16) (x1 : Vec F S1x512x1024 .bf16) (x2 : Vec F S1024x1024 .bf16) (x3 : Vec F S1024 .f32) (xo4 : Vec F S1x1024x1024 .f32) (xs0 : Vec F S1024x1 .f32) (xs1 : Vec F S1024x1 .f32) :
    sout0_B_1 c i arg2 harg2 arg3 harg3 arg4 harg4 arg5 harg5 arg6 harg6 arg7 harg7 arg8 harg8 hc0 hc1 x0 x1 x2 x3 xo4 xs0 xs1 = k0_pay12 x1 x2 x3 x0 xs0 xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 x3 xo4 xs0 xs1)]
  unfold kernelRun0_B
  dsimp only
  sl_unfold_words
  rw [View.canon_cons_unit_zero hz2]

  simp only [View.readAt_eq_ld, harg2.read_unread, harg3.read_unread, harg4.read_unread, harg5.read_unread,
    View.ld_unit_zero (S := S1x512x1024) hz3, View.ld_unit_zero (S := S1024x1024) hz2, View.ld_unit_zero (S := S1024) hz1,
    View.ld_unit_zero (S := S1x1024x1024) hz3, View.ld_unit_zero (S := S1024x1) hz2,
    View.readCov_unit_zero (S := S1024x1) _ hz2, View.readCov_unit_zero (S := S1x1024x1024) _ hz3, harg7.read_unread, harg8.read_unread, harg6.read_unread]
  try rfl

/-- Second key block: the output block is the updated numerator divided by the updated denominator, then max with 0. -/
theorem out_second (c : Dev nD) (i : grid0.Coords) (arg2 : Memref sig .tc .vmem S1x1024x1024 .bf16) (harg2 : arg2.IsWhole) (arg3 : Memref sig .tc .vmem S1x512x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1x1024x1024 .bf16) (x1 : Vec F S1x512x1024 .bf16) (x2 : Vec F S1024x1024 .bf16) (x3 : Vec F S1024 .f32) (xo4 : Vec F S1x1024x1024 .f32) (xs0 : Vec F S1024x1 .f32) (xs1 : Vec F S1024x1 .f32) :
    out0_B_4 c i arg2 harg2 arg3 harg3 arg4 harg4 arg5 harg5 arg6 harg6 arg7 harg7 arg8 harg8 hc0 hc1 x0 x1 x2 x3 xo4 xs0 xs1 = k0_pay3 (k0_pay1 (k0_pay7 x1) (k0_pay10 x1 x2 x3 x0 xs0) (k0_pay13 x1 x2 x3 x0 xs0) (constant S1024x1024 .f32 0x00000000#32) xo4) (k0_pay12 x1 x2 x3 x0 xs0 xs1) := by
  unfold out0_B_4
  rw [View.read_writes_eq_canon _ _ _ (cover0_B_4 c i arg2 harg2 arg3 harg3 arg4 harg4 arg5 harg5 arg6 harg6 arg7 harg7 arg8 harg8 hc0 hc1 x0 x1 x2 x3 xo4 xs0 xs1)]
  unfold kernelRun0_B
  dsimp only
  sl_unfold_words
  rw [View.canon_cons_unit_zero hz3]

  simp only [View.readAt_eq_ld, harg2.read_unread, harg3.read_unread, harg4.read_unread, harg5.read_unread,
    View.ld_unit_zero (S := S1x512x1024) hz3, View.ld_unit_zero (S := S1024x1024) hz2, View.ld_unit_zero (S := S1024) hz1,
    View.ld_unit_zero (S := S1x1024x1024) hz3, View.ld_unit_zero (S := S1024x1) hz2,
    View.readCov_unit_zero (S := S1024x1) _ hz2, View.readCov_unit_zero (S := S1x1024x1024) _ hz3, harg7.read_unread, harg8.read_unread, harg6.read_unread]
  try rfl

end Cert.KernelIdeal.Pieces
end
-- ==== Proof.Spec.lean ====
/-
  Attention with a softmax over the keys, and its evaluation one half of the keys at a time.

  For one batch entry, one query row p and one output column h the result is
    max (Σ_q  (e_q / Σ_q' e_q') · v_q , 0),   e_q = exp (s_q − max_q' s_q'),
  where s_q = Σ_h P[b,p,h] · K[b,q,h] is the score of key q, K[b,q,k] = Σ_h Q[b,q,h] · W[h,k] + bias[k] the key
  projection, and v_q = Q[b,q,h] the value. This file states that function of the four arrays (`attend`), the same
  row evaluated over the keys 0..511 first and the keys 512..1023 second with a running maximum, a running
  denominator and a running numerator (`onlineRow`), and proves the two rows equal when scores and values are real
  numbers: exp (m₁ − M) · exp (s − m₁) = exp (s − M) and a quotient of a finite sum is the sum of the quotients.
-/
import Idealize.ShloMosaic.PureOps.Ideal
import Idealize.ShloMosaic.Lib.ValueIdx

noncomputable section

open scoped BigOperators

namespace Cert.Spec

open Idealize.ShloMosaic Idealize.ShloMosaic.ValueIdx

/-- A [16,1024,1024] array of extended reals. -/
abbrev Arr3 := (⟨3, ![16, 1024, 1024]⟩ : Shape).Idx → EReal
/-- A [1024,1024] array of extended reals. -/
abbrev Arr2 := (⟨2, ![1024, 1024]⟩ : Shape).Idx → EReal
/-- A [1024] array of extended reals. -/
abbrev Arr1 := (⟨1, ![1024]⟩ : Shape).Idx → EReal

/-- The key projection: K[b,q,k] = Σ_h Q[b,q,h] · W[h,k] + bias[k]. -/
def key (Q : Arr3) (W : Arr2) (bias : Arr1) (b : Fin 16) (q k : Fin 1024) : EReal :=
  (∑ h : Fin 1024, Q (ix3 b q h) * W (ix2 h k)) + bias (ix1 k)

/-- The score of key q for query row p: s = Σ_h P[b,p,h] · K[b,q,h]. -/
def score (P Q : Arr3) (W : Arr2) (bias : Arr1) (b : Fin 16) (p q : Fin 1024) : EReal :=
  ∑ h : Fin 1024, P (ix3 b p h) * key Q W bias b q h

/-- One row of softmax attention followed by max with 0, from the row's scores s and values v. -/
def softRow (s v : Fin 1024 → EReal) : EReal :=
  max (∑ q, Ideal.div (Ideal.exp (s q - max ⊥ (⨆ q', s q'))) (∑ q'', Ideal.exp (s q'' - max ⊥ (⨆ q', s q'))) * v q) 0

/-- The whole result: entry (b,p,h) is the softmax row of the scores of (b,p) against the values Q[b,·,h]. -/
def attend (P Q : Arr3) (W : Arr2) (bias : Arr1) : Arr3 := fun i =>
  softRow (fun q => score P Q W bias (i 0) (i 1) q) (fun q => Q (ix3 (i 0) q (i 2)))

/-! ## The row evaluated one half of the keys at a time -/

/-- The running maximum after a block of scores. -/
def maxStep (m : EReal) (s : Fin 512 → EReal) : EReal := max m (⨆ j, s j)

/-- The running denominator after a block of scores: the old one rescaled to the new maximum, plus the block's. -/
def denStep (m l : EReal) (s : Fin 512 → EReal) : EReal :=
  Ideal.exp (m - maxStep m s) * l + ∑ j, Ideal.exp (s j - maxStep m s)

/-- The running numerator after a block of scores and values. -/
def numStep (m o : EReal) (s v : Fin 512 → EReal) : EReal :=
  Ideal.exp (m - maxStep m s) * o + ∑ j, Ideal.exp (s j - maxStep m s) * v j

/-- Keys 0..511 of a row. -/
def lo (f : Fin 1024 → EReal) : Fin 512 → EReal := fun j => f ⟨j.val, by omega⟩
/-- Keys 512..1023 of a row. -/
def hi (f : Fin 1024 → EReal) : Fin 512 → EReal := fun j => f ⟨512 + j.val, by omega⟩

/-- The row evaluated over the first half of the keys from (−∞, 0, 0), then over the second half, then divided. -/
def onlineRow (s v : Fin 1024 → EReal) : EReal :=
  max (Ideal.div
        (numStep (maxStep ⊥ (lo s)) (numStep ⊥ 0 (lo s) (lo v)) (hi s) (hi v))
        (denStep (maxStep ⊥ (lo s)) (denStep ⊥ 0 (lo s)) (hi s))) 0

end Cert.Spec

end
-- ==== Proof.LibMaxReduce.lean ====
/-
  Maxima at the extended reals, for any shapes.

  A float maximum-reduction over ONE axis started from -inf (the word 0xFF800000), read at a reduced index, is the
  supremum over that axis's coordinates of the operand at the index with the coordinate put back. It rests on two
  small facts: the word 0xFF800000 denotes -inf, the least extended real, and a fold of max started from the least
  element over a whole finite range is the supremum over the range.
-/
import Idealize.ShloMosaic.PureOps.Ideal.Laws
import Idealize.ShloMosaic.PureOps.Reduce

noncomputable section

open scoped BigOperators

namespace Cert.Lib.MaxReduce

open Idealize.ShloMosaic

/-- The f32 word 0xFF800000 denotes -inf. -/
theorem ofBits_neg_inf_f32 : Ideal.ofBits .f32 0xFF800000#32 = (⊥ : EReal) := by
  simp [Ideal.ofBits, Ideal.ieee]

/-- A fold of max started from -inf over all of a finite index range is the supremum over the range. -/
theorem fold_max_bot_eq_iSup {K : Nat} (f : Fin K → EReal) :
    (Finset.univ : Finset (Fin K)).fold max (⊥ : EReal) f = ⨆ k, f k := by
  rw [← Finset.sup_univ_eq_iSup]
  rfl

/-- The host's one-operand reduce with a maximum body over one axis, its initial value the -inf constant, at reduced
    index j: the supremum over that axis's coordinates k of the operand at j with k put back (`h'` is the host's
    shape fact, `h` the lane form of the same fact, which names the index with the coordinate put back). -/
theorem hostMaxReduce_single {s t u : Shape} {a : Fin s.rank} (x : FVec Ideal s .f32) (h' : s.ReducesTo [a] t)
    (h : s.Reduces [a] t) (hu : 0 < u.numel) (j : t.Idx) :
    Host.reduce FloatOps.maximumf x (constant (F := Ideal) u .f32 0xFF800000#32) h' hu j
      = ⨆ k : Fin (s.size a), x (h.lift j k) := by
  rw [Host.reduce_eq_fold_single FloatOps.maximumf x _ h' h hu]
  show (Finset.univ : Finset (Fin (s.size a))).fold max (Ideal.ofBits .f32 0xFF800000#32) (fun k => x (h.lift j k)) = _
  rw [ofBits_neg_inf_f32]
  exact fold_max_bot_eq_iSup _

end Cert.Lib.MaxReduce

end
-- ==== Proof.LibMaxLane.lean ====
/-
  A lane maximum at the extended reals, for any shapes.

  A kernel's float maximum-reduction over ONE axis started from -inf (the word 0xFF800000), read at a reduced index,
  is the supremum over that axis's coordinates of the operand at the index with the coordinate put back: the mirror,
  for the lane reduction, of the host's maximum and of the lane minimum. It rests on the same two facts: the word
  0xFF800000 denotes -inf, and a fold of max started from the least element over a whole finite range is the supremum.
-/
import Idealize.ShloMosaic.PureOps.Ideal.Laws
import Idealize.ShloMosaic.PureOps.Reduce
import proofs.«102071_j3822520893581_2_alg».proof.Proof.LibMaxReduce

noncomputable section

open scoped BigOperators

namespace Cert.Lib.MaxLane

open Idealize.ShloMosaic

/-- A kernel's lane maximum over one axis started from -inf, at reduced index j: the supremum over that axis's
    coordinates k of the operand at j with k put back (`h.lift j k`). The accumulator's proof is taken as the
    printed program spells it. -/
theorem maxReduce_single {s t : Shape} {a : Fin s.rank} (src : FVec Ideal s .f32) (h : s.Reduces [a] t)
    (hφ : FKind.Formats .f32) (hacc : (0xFF800000#32 : BitVec 32) = FKind.maximumf.neutral .f32 hφ) (j : t.Idx) :
    multiReduction .maximumf [a] t src 0xFF800000#32 h hφ hacc j = ⨆ k : Fin (s.size a), src (h.lift j k) := by
  refine (Ideal.multiReduction_maximumf_single src 0xFF800000#32 h hφ hacc j).trans ?_
  show (Finset.univ : Finset (Fin (s.size a))).fold max (Ideal.ofBits .f32 0xFF800000#32) (fun k => src (h.lift j k)) = _
  rw [Cert.Lib.MaxReduce.ofBits_neg_inf_f32]
  exact Cert.Lib.MaxReduce.fold_max_bot_eq_iSup _

end Cert.Lib.MaxLane

end
-- ==== Proof.LibOneAxisDot.lean ====
/-
  A matrix product that contracts ONE axis, read at one output index, at the extended reals.

  Whatever the dimension numbers are (which axis of each operand is contracted, in which order the free axes
  appear in the result), once the contraction has a single axis of extent K the product's entry at an output
  index j is a sum over k < K of a left entry times a right entry: the left operand read at the index the
  dimension numbers assign to (j, k), the right operand likewise. The two families of operand indices are
  parameters here; each concrete product supplies them (for x · wᵀ they are (r, k) and (c, k), for x · w they
  are (r, k) and (k, c)). No finiteness is asked of any entry: only the index set of the sum is renamed.
-/
import Idealize.ShloMosaic.PureOps.Ideal.Laws
import Idealize.ShloMosaic.Lib.ValueIdx

noncomputable section

open scoped BigOperators

namespace Cert.Lib.OneAxisDot

open Idealize.ShloMosaic Idealize.ShloMosaic.ValueIdx

/-- The contraction's sum, indexed by the dimension numbers' own one-axis contraction index, is the sum over
    k < K of l(li k) · r(ri k), when li k and ri k are the operand indices at the k-th contraction index. -/
theorem contraction_sum_at {sl sr so : Shape} (d : DotDims sl sr so) (K : Nat) (hr : d.contr.rank = 1)
    (hs : d.contr.size ⟨0, by omega⟩ = K) (l : sl.Idx → EReal) (r : sr.Idx → EReal) (j : so.Idx)
    (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    ∑ q : d.contr.Idx, l (d.lhsIdx j q) * r (d.rhsIdx j q) = ∑ k : Fin K, l (li k) * r (ri k) := by
  rw [← Equiv.sum_comp (contrEquiv1 d K hr hs).symm]
  exact Finset.sum_congr rfl fun k _ => by rw [hl k, hrr k]

/-- A matrix unit's product accumulated into the zero matrix, at output index j: the zero adds nothing, and the
    rest is the contraction's sum. -/
theorem matmul_zero_apply_at {sl sr so : Shape} {φ₁ φ₂ : FTy} (d : DotDims sl sr so) (K : Nat) (hr : d.contr.rank = 1)
    (hs : d.contr.size ⟨0, by omega⟩ = K) (prec : Option ContractPrecision)
    (l : FVec Ideal sl φ₁) (r : FVec Ideal sr φ₂) (j : so.Idx)
    (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    matmul d prec l r (constant so .f32 0x00000000#32) j = ∑ k : Fin K, l (li k) * r (ri k) :=
  (Ideal.matmul_constant_zero_apply d prec l r j).trans (contraction_sum_at d K hr hs l r j li ri hl hrr)

/-- The host's dot_general at output index j: the same sum, with no accumulator. -/
theorem dotGeneral_apply_at {sl sr so : Shape} {φ₁ φ₂ : FTy} (d : DotDims sl sr so) (K : Nat) (hr : d.contr.rank = 1)
    (hs : d.contr.size ⟨0, by omega⟩ = K) (prec : Option ContractPrecision)
    (l : FVec Ideal sl φ₁) (r : FVec Ideal sr φ₂) (j : so.Idx)
    (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    Host.dotGeneral d prec l r j = ∑ k : Fin K, l (li k) * r (ri k) :=
  (Ideal.dotGeneral_apply d prec .single l r j).trans (contraction_sum_at d K hr hs l r j li ri hl hrr)

end Cert.Lib.OneAxisDot

end
-- ==== Proof.LibDotFreeAxis.lean ====
/-
  The free (non-contracted, non-batch) axes of a matrix product's operand indices.

  A product's dimension numbers say, for every axis of each operand, where its coordinate comes from: a free axis of
  the left operand reads the output index at the axis's place among the left free axes (after the batch axes), a free
  axis of the right operand reads it after all of the left operand's. With no batch axes and one free axis on each
  side, the left operand's free coordinate is the output's coordinate 0 and the right operand's is the output's
  coordinate 1, whatever the contraction position is. These are the companions, for the free axes, of the
  library's statements about the single contracted axis.
-/
import Idealize.ShloMosaic.PureOps.Dims

namespace Cert.Lib.DotFreeAxis

open Idealize.ShloMosaic

variable {sl sr so : Shape} (d : DotDims sl sr so)

/-- No batch axes, one left free axis a: the left operand's coordinate on a is the output's coordinate 0. -/
theorem lhsIdx_val_of_free {a : Fin sl.rank} (hb : d.lhsBatch = []) (hn : d.lhsNonContracting = [a])
    (h0 : 0 < so.rank) (j : so.Idx) (k : d.contr.Idx) :
    (d.lhsIdx j k a).val = (j ⟨0, h0⟩).val := by
  have h1 : a ∉ d.lhsBatch := by rw [hb]; exact List.not_mem_nil
  have h2 : a ∈ d.lhsNonContracting := by rw [hn]; exact List.mem_singleton.mpr rfl
  unfold DotDims.lhsIdx
  rw [dif_neg h1, dif_pos h2]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- No batch axes, one free axis on each side: the right operand's coordinate on its free axis a is the output's
    coordinate 1. -/
theorem rhsIdx_val_of_free {a : Fin sr.rank} {a' : Fin sl.rank} (hb : d.lhsBatch = []) (hb' : d.rhsBatch = [])
    (hn' : d.lhsNonContracting = [a']) (hn : d.rhsNonContracting = [a])
    (h1 : 1 < so.rank) (j : so.Idx) (k : d.contr.Idx) :
    (d.rhsIdx j k a).val = (j ⟨1, h1⟩).val := by
  have h2 : a ∉ d.rhsBatch := by rw [hb']; exact List.not_mem_nil
  have h3 : a ∈ d.rhsNonContracting := by rw [hn]; exact List.mem_singleton.mpr rfl
  unfold DotDims.rhsIdx
  rw [dif_neg h2, dif_pos h3]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn', hn])

end Cert.Lib.DotFreeAxis
-- ==== Proof.LibKeepdimsColumn.lean ====
/-
  A per-row quantity carried back to a matrix's shape through a column.

  A reduction along the columns of an [a, b] matrix leaves a vector of a numbers, one per row. To combine it with the
  matrix again it is reshaped to an [a, 1] column and broadcast along the columns to [a, b]. Entry (p, q) of the
  result is the p-th number, whatever q: the reshape keeps the row-major position p, and the broadcast reads the
  column's only entry of row p. Stated for any extents a and b and any element type; nothing is computed.
-/
import Idealize.ShloMosaic.Lib.Pipeline.Value
import Idealize.ShloMosaic.Lib.ValueIdx

noncomputable section

namespace Cert.Lib.KeepdimsColumn

open Idealize.ShloMosaic Idealize.ShloMosaic.ValueIdx

/-- The [a] → [a, 1] reshape, entry (p, 0): the p-th number. -/
theorem column_cast_at {α : Type} {a : Nat} (u : (⟨1, ![a]⟩ : Shape).Idx → α)
    (h : (⟨1, ![a]⟩ : Shape).ShapeCasts ⟨2, ![a, 1]⟩) (p : Fin a) :
    shapeCast ⟨2, ![a, 1]⟩ u h (ix2 (n0 := a) (n1 := 1) p ⟨0, Nat.one_pos⟩) = u (ix1 p) :=
  shapeCast_apply u h _ (ix1 p) (by
    rw [Shape.rowMajor_val_one, Shape.rowMajor_val_two]
    show p.val = p.val * 1 + 0
    omega)

/-- The [a, 1] → [a, b] broadcast, entry (p, q): the column's entry of row p. -/
theorem column_broadcast_at {α : Type} {a b : Nat} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 (n0 := a) (n1 := 1) p ⟨0, Nat.one_pos⟩) :=
  broadcastTo_apply v h (ix2 p q) _ (fun d => by
    match d with
    | ⟨0, _⟩ =>
      show p.val = if a = 1 then 0 else p.val
      split
      · have := p.isLt; omega
      · rfl
    | ⟨1, _⟩ =>
      show 0 = if (1 : Nat) = 1 then 0 else q.val
      rw [if_pos rfl])

/-- Both together: a vector of a numbers turned into a column and broadcast along the columns reads, at (p, q), the
    p-th number. -/
theorem column_at {α : Type} {a b : Nat} (u : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ u hc) hb (ix2 p q) = u (ix1 p) :=
  (column_broadcast_at _ hb p q).trans (column_cast_at u hc p)

end Cert.Lib.KeepdimsColumn

end
-- ==== Proof.KernelRows.lean ====
/-
  The body's arithmetic, read one entry at a time, at the extended reals.

  For one grid point the body holds a block of 1024 query rows (pb), a block of 512 keys (qb), the key weights (w) and
  the bias (bi), and the running maximum, denominator and numerator of each query row. Read at an entry, its matrix
  products are plain sums over the contracted coordinate, its row maximum a supremum over the block's 512 keys and its
  row sum a sum over them; a change of float format is the identity. So each store's value at an entry is one step
  of the row evaluated one key block at a time: the running maximum becomes max m (sup of the block's scores), the
  denominator exp (m − m')·l + Σ exp (s − m'), the numerator exp (m − m')·o + Σ exp (s − m')·v, and the last store
  max (o / l) 0.
-/
import proofs.«102071_j3822520893581_2_alg».proof.Proof.Gen.KernelIdeal.Skeleton
import proofs.«102071_j3822520893581_2_alg».proof.Proof.Spec
import proofs.«102071_j3822520893581_2_alg».proof.Proof.LibMaxLane
import proofs.«102071_j3822520893581_2_alg».proof.Proof.LibOneAxisDot
import proofs.«102071_j3822520893581_2_alg».proof.Proof.LibDotFreeAxis
import proofs.«102071_j3822520893581_2_alg».proof.Proof.LibKeepdimsColumn
import Idealize.ShloMosaic.Lib.Pipeline.Value
import Idealize.ShloMosaic.Lib.ValueIdx
import Idealize.ShloMosaic.PureOps.Ideal.Laws

noncomputable section

open scoped BigOperators

namespace Cert.KernelIdeal.Rows

open Cert.KernelIdeal Cert.KernelIdeal.Gen Idealize.ShloMosaic Idealize.ShloMosaic.ValueIdx Cert.Spec

/-! ## The block's scores -/

/-- The key projection of the block's key j: Σ_h qb[j,h] · w[h,k] + bi[k]. -/
def blkKey (qb : Vec Ideal S1x512x1024 .bf16) (w : Vec Ideal S1024x1024 .bf16) (bi : Vec Ideal S1024 .f32)
    (j : Fin 512) (k : Fin 1024) : EReal :=
  (∑ h : Fin 1024, qb (ix3 (0 : Fin 1) j h) * w (ix2 h k)) + bi (ix1 k)

/-- The score of the block's key j for query row p: Σ_h pb[p,h] · key[j,h]. -/
def blkScore (pb : Vec Ideal S1x1024x1024 .bf16) (qb : Vec Ideal S1x512x1024 .bf16) (w : Vec Ideal S1024x1024 .bf16)
    (bi : Vec Ideal S1024 .f32) (p : Fin 1024) (j : Fin 512) : EReal :=
  ∑ h : Fin 1024, pb (ix3 (0 : Fin 1) p h) * blkKey qb w bi j h

/-! ## Reshapes and broadcasts at an entry -/

/-- Dropping the leading unit axis of a [1,512,1024] block: entry (j,k) is entry (0,j,k). -/
theorem drop_q {α : Type} (x : S1x512x1024.Idx → α) (h : S1x512x1024.ShapeCasts S512x1024) (j : Fin 512) (k : Fin 1024) :
    shapeCast S512x1024 x h (ix2 j k) = x (ix3 (0 : Fin 1) j k) :=
  shapeCast_apply x h _ (ix3 (0 : Fin 1) j k) (by
    rw [Shape.rowMajor_val_three, Shape.rowMajor_val_two]
    show (0 * 512 + j.val) * 1024 + k.val = j.val * 1024 + k.val
    omega)

/-- Dropping the leading unit axis of a [1,1024,1024] block: entry (p,k) is entry (0,p,k). -/
theorem drop_p {α : Type} (x : S1x1024x1024.Idx → α) (h : S1x1024x1024.ShapeCasts S1024x1024) (p k : Fin 1024) :
    shapeCast S1024x1024 x h (ix2 p k) = x (ix3 (0 : Fin 1) p k) :=
  shapeCast_apply x h _ (ix3 (0 : Fin 1) p k) (by
    rw [Shape.rowMajor_val_three, Shape.rowMajor_val_two]
    show (0 * 1024 + p.val) * 1024 + k.val = p.val * 1024 + k.val
    omega)

/-- Adding a leading unit axis to a [1024,1024] block: entry (0,p,k) is entry (p,k). -/
theorem lead_p {α : Type} (x : S1024x1024.Idx → α) (h : S1024x1024.ShapeCasts S1x1024x1024) (p k : Fin 1024) :
    shapeCast S1x1024x1024 x h (ix3 (0 : Fin 1) p k) = x (ix2 p k) :=
  shapeCast_apply x h _ (ix2 p k) (by
    rw [Shape.rowMajor_val_three, Shape.rowMajor_val_two]
    show p.val * 1024 + k.val = (0 * 1024 + p.val) * 1024 + k.val
    omega)

/-- The bias as a row, repeated for every key of the block: entry (j,k) is bi[k]. -/
theorem bias_at {α : Type} (bi : S1024.Idx → α) (hc : S1024.ShapeCasts S1x1024) (hb : S1x1024.Broadcasts S512x1024)
    (j : Fin 512) (k : Fin 1024) :
    broadcastTo S512x1024 (shapeCast S1x1024 bi hc) hb (ix2 j k) = bi (ix1 k) := by
  refine (broadcastTo_apply _ hb (ix2 j k) (ix2 (0 : Fin 1) k) (fun d => ?_)).trans ?_
  · match d with
    | ⟨0, _⟩ => show (0 : Nat) = if (1 : Nat) = 1 then 0 else j.val; rw [if_pos rfl]
    | ⟨1, _⟩ => show k.val = if (1024 : Nat) = 1 then 0 else k.val; rw [if_neg (by decide)]
  · exact shapeCast_apply bi hc _ (ix1 k) (by
      rw [Shape.rowMajor_val_one, Shape.rowMajor_val_two]
      show k.val = 0 * 1024 + k.val
      omega)

/-! ## The three matrix products at an entry -/

/-- qb · w into zero: entry (j,k) is Σ_h l[j,h] · r[h,k]. -/
theorem proj_at (l : FVec Ideal S512x1024 .bf16) (r : FVec Ideal S1024x1024 .bf16) (j : Fin 512) (k : Fin 1024) :
    matmul dot_S512x1024_S1024x1024_S512x1024_1_0_0_1_n_n none l r (constant S512x1024 .f32 0x00000000#32) (ix2 j k)
      = ∑ h : Fin 1024, l (ix2 j h) * r (ix2 h k) :=
  Cert.Lib.OneAxisDot.matmul_zero_apply_at _ 1024 rfl rfl none l r (ix2 j k) (fun h => ix2 j h) (fun h => ix2 h k)
    (fun h => funext fun a => Fin.ext (by
      match a with
      | ⟨0, _⟩ => exact Cert.Lib.DotFreeAxis.lhsIdx_val_of_free _ rfl rfl (by decide) _ _
      | ⟨1, _⟩ => exact (DotDims.lhsIdx_val_of_single _ rfl _ _).trans (contrEquiv1_symm_val _ 1024 rfl rfl h)))
    (fun h => funext fun a => Fin.ext (by
      match a with
      | ⟨0, _⟩ => exact (DotDims.rhsIdx_val_of_single _ rfl _ _).trans (contrEquiv1_symm_val _ 1024 rfl rfl h)
      | ⟨1, _⟩ => exact Cert.Lib.DotFreeAxis.rhsIdx_val_of_free _ rfl rfl rfl rfl (by decide) _ _))

/-- pb · keysᵀ into zero: entry (p,j) is Σ_h l[p,h] · r[j,h]. -/
theorem scores_at (l : FVec Ideal S1024x1024 .bf16) (r : FVec Ideal S512x1024 .bf16) (p : Fin 1024) (j : Fin 512) :
    matmul dot_S1024x1024_S512x1024_S1024x512_1_1_0_0_n_n none l r (constant S1024x512 .f32 0x00000000#32) (ix2 p j)
      = ∑ h : Fin 1024, l (ix2 p h) * r (ix2 j h) :=
  Cert.Lib.OneAxisDot.matmul_zero_apply_at _ 1024 rfl rfl none l r (ix2 p j) (fun h => ix2 p h) (fun h => ix2 j h)
    (fun h => funext fun a => Fin.ext (by
      match a with
      | ⟨0, _⟩ => exact Cert.Lib.DotFreeAxis.lhsIdx_val_of_free _ rfl rfl (by decide) _ _
      | ⟨1, _⟩ => exact (DotDims.lhsIdx_val_of_single _ rfl _ _).trans (contrEquiv1_symm_val _ 1024 rfl rfl h)))
    (fun h => funext fun a => Fin.ext (by
      match a with
      | ⟨0, _⟩ => exact Cert.Lib.DotFreeAxis.rhsIdx_val_of_free _ rfl rfl rfl rfl (by decide) _ _
      | ⟨1, _⟩ => exact (DotDims.rhsIdx_val_of_single _ rfl _ _).trans (contrEquiv1_symm_val _ 1024 rfl rfl h)))

/-- weights · values into zero: entry (p,h) is Σ_j l[p,j] · r[j,h]. -/
theorem pv_at (l : FVec Ideal S1024x512 .bf16) (r : FVec Ideal S512x1024 .bf16) (p h : Fin 1024) :
    matmul dot_S1024x512_S512x1024_S1024x1024_1_0_0_1_n_n none l r (constant S1024x1024 .f32 0x00000000#32) (ix2 p h)
      = ∑ j : Fin 512, l (ix2 p j) * r (ix2 j h) :=
  Cert.Lib.OneAxisDot.matmul_zero_apply_at _ 512 rfl rfl none l r (ix2 p h) (fun j => ix2 p j) (fun j => ix2 j h)
    (fun j => funext fun a => Fin.ext (by
      match a with
      | ⟨0, _⟩ => exact Cert.Lib.DotFreeAxis.lhsIdx_val_of_free _ rfl rfl (by decide) _ _
      | ⟨1, _⟩ => exact (DotDims.lhsIdx_val_of_single _ rfl _ _).trans (contrEquiv1_symm_val _ 512 rfl rfl j)))
    (fun j => funext fun a => Fin.ext (by
      match a with
      | ⟨0, _⟩ => exact (DotDims.rhsIdx_val_of_single _ rfl _ _).trans (contrEquiv1_symm_val _ 512 rfl rfl j)
      | ⟨1, _⟩ => exact Cert.Lib.DotFreeAxis.rhsIdx_val_of_free _ rfl rfl rfl rfl (by decide) _ _))

/-! ## The body's values at an entry -/

variable (pb : Vec Ideal S1x1024x1024 .bf16) (qb : Vec Ideal S1x512x1024 .bf16) (w : Vec Ideal S1024x1024 .bf16)
  (bi : Vec Ideal S1024 .f32)

/-- The scores the body computes for the block: entry (p,j) is the score of the block's key j for row p. -/
theorem score_blk (p : Fin 1024) (j : Fin 512) :
    k0_pay8 (F := Ideal) qb w bi pb (ix2 p j) = blkScore pb qb w bi p j := by
  unfold k0_pay8 k0_pay7
  try dsimp only
  refine (scores_at _ _ p j).trans ?_
  unfold blkScore
  refine Finset.sum_congr rfl fun h _ => ?_
  refine congrArg₂ (· * ·) (drop_p pb _ p h) ?_
  show matmul (F := Ideal) _ none (shapeCast S512x1024 qb _) (shapeCast S1024x1024 w _) _ (ix2 j h)
      + broadcastTo S512x1024 (shapeCast S1x1024 bi _) _ (ix2 j h) = _
  unfold blkKey
  refine congrArg₂ (· + ·) ((proj_at _ _ j h).trans (Finset.sum_congr rfl fun h' _ => ?_)) (bias_at bi _ _ j h)
  exact congrArg₂ (· * ·) (drop_q qb _ j h') (congrFun (shapeCast_self w _) _)

/-- Row p of a [1024,512] array with column k put back is entry (p,k). -/
theorem lift_row (h : S1024x512.Reduces [1] S1024) (p : Fin 1024) (k : Fin (S1024x512.size 1)) :
    h.lift (ix1 p) k = ix2 p (⟨k.val, k.isLt⟩ : Fin 512) := by
  funext a; apply Fin.ext
  fin_cases a <;> rfl

/-- The running maximum after the block: max of the previous one and the supremum of the block's scores of the row. -/
theorem max_blk (mp : Vec Ideal S1024x1 .f32) (p : Fin 1024) :
    k0_pay9 (F := Ideal) qb w bi pb mp (ix2 p (0 : Fin 1))
      = maxStep (mp (ix2 p (0 : Fin 1))) (fun j => blkScore pb qb w bi p j) := by
  unfold k0_pay9
  try dsimp only
  show max (mp (ix2 p (0 : Fin 1))) (shapeCast S1024x1 (multiReduction (F := Ideal) .maximumf [1] S1024 (k0_pay8 qb w bi pb) 0xFF800000#32 _ _ _) _ (ix2 p (0 : Fin 1))) = _
  unfold maxStep
  refine congrArg (max _) ?_
  refine (Cert.Lib.KeepdimsColumn.column_cast_at _ _ p).trans ?_
  refine (Cert.Lib.MaxLane.maxReduce_single _ _ _ _ (ix1 p)).trans ?_
  show (⨆ k : Fin 512, _) = _
  refine iSup_congr fun k => ?_
  exact (congrArg (k0_pay8 (F := Ideal) qb w bi pb) (lift_row _ p k)).trans (score_blk pb qb w bi p k)

/-- The rescaling factor of the block: exp (previous maximum − new maximum). -/
theorem scale_blk (mp : Vec Ideal S1024x1 .f32) (p : Fin 1024) :
    k0_pay10 (F := Ideal) qb w bi pb mp (ix2 p (0 : Fin 1))
      = Ideal.exp (mp (ix2 p (0 : Fin 1)) - maxStep (mp (ix2 p (0 : Fin 1))) (fun j => blkScore pb qb w bi p j)) := by
  unfold k0_pay10
  try dsimp only
  show Ideal.exp (mp (ix2 p (0 : Fin 1)) - k0_pay9 qb w bi pb mp (ix2 p (0 : Fin 1))) = _
  rw [max_blk]

/-- The block's exponentials: exp (score − new maximum). -/
theorem exp_blk (mp : Vec Ideal S1024x1 .f32) (p : Fin 1024) (j : Fin 512) :
    k0_pay11 (F := Ideal) qb w bi pb mp (ix2 p j)
      = Ideal.exp (blkScore pb qb w bi p j - maxStep (mp (ix2 p (0 : Fin 1))) (fun j => blkScore pb qb w bi p j)) := by
  unfold k0_pay11
  try dsimp only
  show Ideal.exp (k0_pay8 qb w bi pb (ix2 p j) - broadcastTo S1024x512 (k0_pay9 qb w bi pb mp) _ (ix2 p j)) = _
  rw [score_blk, Cert.Lib.KeepdimsColumn.column_broadcast_at]
  show Ideal.exp (_ - k0_pay9 qb w bi pb mp (ix2 p (0 : Fin 1))) = _
  rw [max_blk]

/-- The running denominator after the block. -/
theorem den_blk (mp lp : Vec Ideal S1024x1 .f32) (p : Fin 1024) :
    k0_pay12 (F := Ideal) qb w bi pb mp lp (ix2 p (0 : Fin 1))
      = denStep (mp (ix2 p (0 : Fin 1))) (lp (ix2 p (0 : Fin 1))) (fun j => blkScore pb qb w bi p j) := by
  unfold k0_pay12
  try dsimp only
  rw [shapeCast_self]
  show k0_pay10 qb w bi pb mp (ix2 p (0 : Fin 1)) * lp (ix2 p (0 : Fin 1))
      + shapeCast S1024x1 (multiReduction (F := Ideal) .add [1] S1024 (k0_pay11 qb w bi pb mp) 0x00000000#32 _ _ _) _ (ix2 p (0 : Fin 1)) = _
  unfold denStep
  refine congrArg₂ (· + ·) (by rw [scale_blk]) ?_
  refine (Cert.Lib.KeepdimsColumn.column_cast_at _ _ p).trans ?_
  refine (Ideal.multiReduction_add_single _ _ _ _ _ (ix1 p)).trans ?_
  show (∑ k : Fin 512, _) = _
  refine Finset.sum_congr rfl fun k _ => ?_
  exact (congrArg (k0_pay11 (F := Ideal) qb w bi pb mp) (lift_row _ p k)).trans (exp_blk pb qb w bi mp p k)

/-- The running numerator after the block, entry (p,h): the previous one rescaled plus the block's weighted values. -/
theorem num_blk (mp : Vec Ideal S1024x1 .f32) (op : Vec Ideal S1x1024x1024 .f32) (p h : Fin 1024) :
    k0_pay1 (F := Ideal) (k0_pay7 qb) (k0_pay10 qb w bi pb mp) (k0_pay13 qb w bi pb mp)
        (constant S1024x1024 .f32 0x00000000#32) op (ix3 (0 : Fin 1) p h)
      = numStep (mp (ix2 p (0 : Fin 1))) (op (ix3 (0 : Fin 1) p h)) (fun j => blkScore pb qb w bi p j)
          (fun j => qb (ix3 (0 : Fin 1) j h)) := by
  unfold k0_pay1
  try dsimp only
  refine (lead_p _ _ p h).trans ?_
  show broadcastTo S1024x1024 (k0_pay10 qb w bi pb mp) _ (ix2 p h) * shapeCast S1024x1024 op _ (ix2 p h)
      + matmul (F := Ideal) _ none (k0_pay13 qb w bi pb mp) (k0_pay7 qb) _ (ix2 p h) = _
  unfold numStep
  refine congrArg₂ (· + ·) (congrArg₂ (· * ·) ?_ (drop_p op _ p h)) ((pv_at _ _ p h).trans (Finset.sum_congr rfl fun j _ => ?_))
  · rw [Cert.Lib.KeepdimsColumn.column_broadcast_at]
    exact scale_blk pb qb w bi mp p
  · refine congrArg₂ (· * ·) ?_ ?_
    · show k0_pay11 qb w bi pb mp (ix2 p j) = _
      exact exp_blk pb qb w bi mp p j
    · unfold k0_pay7
      exact drop_q qb _ j h

/-- The last store of a batch entry: numerator over denominator, then max with 0. -/
theorem out_blk (o : Vec Ideal S1x1024x1024 .f32) (l : Vec Ideal S1024x1 .f32) (p h : Fin 1024) :
    k0_pay3 (F := Ideal) o l (ix3 (0 : Fin 1) p h)
      = max (Ideal.div (o (ix3 (0 : Fin 1) p h)) (l (ix2 p (0 : Fin 1)))) 0 := by
  unfold k0_pay3
  try dsimp only
  refine (lead_p _ _ p h).trans ?_
  show max (Ideal.div (shapeCast S1024x1024 o _ (ix2 p h)) (broadcastTo S1024x1024 l _ (ix2 p h))) (Ideal.ofBits .f32 0x00000000#32) = _
  rw [drop_p, Cert.Lib.KeepdimsColumn.column_broadcast_at, Ideal.ofBits_zero_f32]
  rfl

/-- The value stored as the running maximum is the maximum itself. -/
theorem keep_blk (v : Vec Ideal S1024x1 .f32) : k0_pay2 (F := Ideal) v = v := by
  unfold k0_pay2
  exact shapeCast_self v _

/-- The initial output block is zero. -/
theorem zero_out (p h : Fin 1024) : k0_pay4 (F := Ideal) (ix3 (0 : Fin 1) p h) = 0 := by
  unfold k0_pay4
  try dsimp only
  refine (lead_p _ _ p h).trans ?_
  exact Ideal.ofBits_zero_f32

/-- The initial running maximum is −∞. -/
theorem bot_max (p : Fin 1024) : k0_pay5 (F := Ideal) (ix2 p (0 : Fin 1)) = ⊥ := by
  unfold k0_pay5
  try dsimp only
  rw [shapeCast_self]
  exact Cert.Lib.MaxReduce.ofBits_neg_inf_f32

/-- The initial running denominator is zero. -/
theorem zero_den (p : Fin 1024) : k0_pay6 (F := Ideal) (ix2 p (0 : Fin 1)) = 0 := by
  unfold k0_pay6
  try dsimp only
  rw [shapeCast_self]
  exact Ideal.ofBits_zero_f32

end Cert.KernelIdeal.Rows
end
-- ==== Proof.BlockReads.lean ====
/-
  Where the blocks of the idealized kernel lie in the argument arrays.

  The kernel runs over a grid of 32 points; point t works on batch entry b = t / 2 and on key block kv = t % 2.
  At point t the query window holds rows (b, ·, ·) of P, the key/value window rows (b, 512·kv + ·, ·) of Q, the
  weight and bias windows the whole of W and of the bias, and the output window rows (b, ·, ·) of the result,
  written back at the odd points only. The arrays the first three windows read are the arguments converted to a
  narrower format, which at the extended reals changes no entry. Each statement below reads one window's block
  at an index with explicit coordinates: a block's coordinate on an axis is the block index times the block's
  size plus the coordinate inside the block.
-/
import proofs.«102071_j3822520893581_2_alg».proof.Proof.Gen.KernelIdeal.Frame.Runs
import Idealize.ShloMosaic.Lib.Pipeline.Value
import Idealize.ShloMosaic.Lib.ValueIdx
import Idealize.ShloMosaic.Lib.Tactic

noncomputable section

namespace Cert.KernelIdeal.BlockReads

open Cert.KernelIdeal Cert.KernelIdeal.Gen Idealize.ShloMosaic Idealize.ShloMosaic.ValueIdx Idealize.ShloMosaic.TcCoe
open Idealize.SL.Sem

/-! ## The grid's points and the block indices -/

/-- The grid has 32 points. -/
theorem point_lt (t : Fin cfg0.N) : t.val < 32 := lt_of_lt_of_eq t.isLt N_0

/-- A point's batch entry t / 2 is below 16. -/
theorem batch_lt (t : Fin cfg0.N) : t.val / 2 < 16 := by have := point_lt t; omega

/-- Row j of key block t % 2 is row 512 · (t % 2) + j of the 1024 keys. -/
theorem key_lt (t : Fin cfg0.N) (j : Fin 512) : t.val % 2 * 512 + j.val < 1024 := by have := j.isLt; omega

/-- The printed index maps, decided over the grid: at point t the query and output windows are at block
    (t / 2, 0, 0), the key/value window at block (t / 2, t % 2, 0), the weight and bias windows at block 0. -/
theorem idx_facts : ∀ t : Fin cfg0.N,
    win0_0.index t (0 : Fin 3) = t.val / 2 ∧ win0_0.index t (1 : Fin 3) = 0 ∧ win0_0.index t (2 : Fin 3) = 0
    ∧ win0_1.index t (0 : Fin 3) = t.val / 2 ∧ win0_1.index t (1 : Fin 3) = t.val % 2 ∧ win0_1.index t (2 : Fin 3) = 0
    ∧ win0_2.index t (0 : Fin 2) = 0 ∧ win0_2.index t (1 : Fin 2) = 0
    ∧ win0_3.index t (0 : Fin 1) = 0
    ∧ win0_4.index t (0 : Fin 3) = t.val / 2 ∧ win0_4.index t (1 : Fin 3) = 0 ∧ win0_4.index t (2 : Fin 3) = 0 :=
  (by decide +kernel : ∀ t : Fin grid0.N, _)

variable (m : (ℓ : Loc nD τ sig) → Buf (Elt Ideal) ℓ) (c : Dev nD) (t : Fin cfg0.N)

/-! ## The arrays the windows read -/

/-- The query window's array is P converted to the narrower format. -/
theorem V_v0 : @Eq (FVec Ideal S16x1024x1024 .bf16) (V m c main_v0)
    (truncf .bf16 (m ((c : Thread nD τ).loc main_arg0) : FVec Ideal S16x1024x1024 .f32) bitsLt_bf16_f32) := by
  dsimp only [Gen.V, Gen.hostOps0]; after_results

/-- The key/value window's array is Q converted to the narrower format. -/
theorem V_v1 : @Eq (FVec Ideal S16x1024x1024 .bf16) (V m c main_v1)
    (truncf .bf16 (m ((c : Thread nD τ).loc main_arg1) : FVec Ideal S16x1024x1024 .f32) bitsLt_bf16_f32) := by
  dsimp only [Gen.V, Gen.hostOps0]; after_results

/-- The weight window's array is W converted to the narrower format. -/
theorem V_v2 : @Eq (FVec Ideal S1024x1024 .bf16) (V m c main_v2)
    (truncf .bf16 (m ((c : Thread nD τ).loc main_arg2) : FVec Ideal S1024x1024 .f32) bitsLt_bf16_f32) := by
  dsimp only [Gen.V, Gen.hostOps0]; after_results

/-! ## The input blocks -/

/-- The query block at point t, at (0, p, h), is P[t / 2, p, h]. -/
theorem in_p (p h : Fin 1024) :
    (iblk (F := Ideal) m c 0 t : Vec Ideal S1x1024x1024 .bf16) (ix3 (0 : Fin 1) p h)
      = (m ((c : Thread nD τ).loc main_arg0) : S16x1024x1024.Idx → EReal) (ix3 ⟨t.val / 2, batch_lt t⟩ p h) := by
  obtain ⟨e0, e1, e2, -⟩ := idx_facts t
  unfold iblk
  rw [View.read_apply]
  show (V m c main_v0 : S16x1024x1024.Idx → EReal) _ = _
  rw [V_v0]
  show (m ((c : Thread nD τ).loc main_arg0) : S16x1024x1024.Idx → EReal) _ = _
  congr 1
  funext a
  apply Fin.ext
  match a with
  | ⟨0, _⟩ => show win0_0.index t (0 : Fin 3) * 1 + 1 * 0 = t.val / 2; omega
  | ⟨1, _⟩ => show win0_0.index t (1 : Fin 3) * 1024 + 1 * p.val = p.val; omega
  | ⟨2, _⟩ => show win0_0.index t (2 : Fin 3) * 1024 + 1 * h.val = h.val; omega

/-- The key/value block at point t, at (0, j, h), is Q[t / 2, 512 · (t % 2) + j, h]. -/
theorem in_q (j : Fin 512) (h : Fin 1024) :
    (iblk (F := Ideal) m c 1 t : Vec Ideal S1x512x1024 .bf16) (ix3 (0 : Fin 1) j h)
      = (m ((c : Thread nD τ).loc main_arg1) : S16x1024x1024.Idx → EReal)
          (ix3 ⟨t.val / 2, batch_lt t⟩ ⟨t.val % 2 * 512 + j.val, key_lt t j⟩ h) := by
  obtain ⟨-, -, -, e0, e1, e2, -⟩ := idx_facts t
  unfold iblk
  rw [View.read_apply]
  show (V m c main_v1 : S16x1024x1024.Idx → EReal) _ = _
  rw [V_v1]
  show (m ((c : Thread nD τ).loc main_arg1) : S16x1024x1024.Idx → EReal) _ = _
  congr 1
  funext a
  apply Fin.ext
  match a with
  | ⟨0, _⟩ => show win0_1.index t (0 : Fin 3) * 1 + 1 * 0 = t.val / 2; omega
  | ⟨1, _⟩ => show win0_1.index t (1 : Fin 3) * 512 + 1 * j.val = t.val % 2 * 512 + j.val; omega
  | ⟨2, _⟩ => show win0_1.index t (2 : Fin 3) * 1024 + 1 * h.val = h.val; omega

/-- The weight block at every point, at (h, k), is W[h, k]. -/
theorem in_w (h k : Fin 1024) :
    (iblk (F := Ideal) m c 2 t : Vec Ideal S1024x1024 .bf16) (ix2 h k)
      = (m ((c : Thread nD τ).loc main_arg2) : S1024x1024.Idx → EReal) (ix2 h k) := by
  obtain ⟨-, -, -, -, -, -, e0, e1, -⟩ := idx_facts t
  unfold iblk
  rw [View.read_apply]
  show (V m c main_v2 : S1024x1024.Idx → EReal) _ = _
  rw [V_v2]
  show (m ((c : Thread nD τ).loc main_arg2) : S1024x1024.Idx → EReal) _ = _
  congr 1
  funext a
  apply Fin.ext
  match a with
  | ⟨0, _⟩ => show win0_2.index t (0 : Fin 2) * 1024 + 1 * h.val = h.val; omega
  | ⟨1, _⟩ => show win0_2.index t (1 : Fin 2) * 1024 + 1 * k.val = k.val; omega

/-- The bias block at every point, at k, is bias[k]. -/
theorem in_b (k : Fin 1024) :
    (iblk (F := Ideal) m c 3 t : Vec Ideal S1024 .f32) (ix1 k)
      = (m ((c : Thread nD τ).loc main_arg3) : S1024.Idx → EReal) (ix1 k) := by
  obtain ⟨-, -, -, -, -, -, -, -, e0, -⟩ := idx_facts t
  unfold iblk
  rw [View.read_apply]
  show (V m c main_arg3 : S1024.Idx → EReal) _ = _
  rw [V_main_arg3]
  show (m ((c : Thread nD τ).loc main_arg3) : S1024.Idx → EReal) _ = _
  congr 1
  funext a
  apply Fin.ext
  match a with
  | ⟨0, _⟩ => show win0_3.index t (0 : Fin 1) * 1024 + 1 * k.val = k.val; omega

/-! ## The output block -/

/-- An array read through the output window's block at point t, at (0, p, h), is the array at (t / 2, p, h). -/
theorem out_read (G : Buf (Elt Ideal) ((cfg0.win 4).arr.view.loc (c.tc : Thread nD τ))) (p h : Fin 1024) :
    (((cfg0.win 4).blk t).view.read (Elt Ideal) G : Vec Ideal S1x1024x1024 .f32) (ix3 (0 : Fin 1) p h)
      = (G : S16x1024x1024.Idx → EReal) (ix3 ⟨t.val / 2, batch_lt t⟩ p h) := by
  obtain ⟨-, -, -, -, -, -, -, -, -, e0, e1, e2⟩ := idx_facts t
  rw [View.read_apply]
  show (G : S16x1024x1024.Idx → EReal) _ = _
  congr 1
  funext a
  apply Fin.ext
  match a with
  | ⟨0, _⟩ => show win0_4.index t (0 : Fin 3) * 1 + 1 * 0 = t.val / 2; omega
  | ⟨1, _⟩ => show win0_4.index t (1 : Fin 3) * 1024 + 1 * p.val = p.val; omega
  | ⟨2, _⟩ => show win0_4.index t (2 : Fin 3) * 1024 + 1 * h.val = h.val; omega

/-- The output window is written back at odd points only. -/
theorem flush_odd : (cfg0.win 4).flush t = true → t.val % 2 = 1 := (flush0_4 t).mp

/-- An index of the result array is in point t's output block iff each coordinate is in the block's range on its
    axis. -/
theorem mem_blk_out (i : S16x1024x1024.Idx) :
    i ∈ ((cfg0.win 4).blk t).view.set ↔ ∀ a : Fin 3, win0_4.index t a * S1x1024x1024.size a ≤ (i a).val
      ∧ (i a).val < win0_4.index t a * S1x1024x1024.size a + S1x1024x1024.size a := by
  show i ∈ ((View.whole main_v3).slice (win0_4.rect t)).set ↔ _
  rw [View.set_slice_whole, Rect.mem_set_unit]
  exact Iff.rfl

/-- Every index (b, p, h) of the result array is in the output block of a point that writes back: the odd point
    2 · b + 1. -/
theorem cover_out : ∀ i : S16x1024x1024.Idx,
    ∃ t : Fin cfg0.N, (cfg0.win 4).flush t = true ∧ i ∈ ((cfg0.win 4).blk t).view.set := by
  intro i
  have hi0 : (i 0).val < 16 := (i 0).isLt
  have hi1 : (i 1).val < 1024 := (i 1).isLt
  have hi2 : (i 2).val < 1024 := (i 2).isLt
  have ht : 2 * (i 0).val + 1 < cfg0.N := lt_of_lt_of_eq (by omega : 2 * (i 0).val + 1 < 32) N_0.symm
  refine ⟨⟨2 * (i 0).val + 1, ht⟩, (flush0_4 _).mpr (by show (2 * (i 0).val + 1) % 2 = 1; omega), ?_⟩
  obtain ⟨-, -, -, -, -, -, -, -, -, e0, e1, e2⟩ := idx_facts ⟨2 * (i 0).val + 1, ht⟩
  have e0' : win0_4.index ⟨2 * (i 0).val + 1, ht⟩ (0 : Fin 3) = (2 * (i 0).val + 1) / 2 := e0
  rw [mem_blk_out]
  intro a
  match a with
  | ⟨0, _⟩ =>
    show win0_4.index ⟨2 * (i 0).val + 1, ht⟩ (0 : Fin 3) * 1 ≤ (i 0).val
      ∧ (i 0).val < win0_4.index ⟨2 * (i 0).val + 1, ht⟩ (0 : Fin 3) * 1 + 1
    omega
  | ⟨1, _⟩ =>
    show win0_4.index ⟨2 * (i 0).val + 1, ht⟩ (1 : Fin 3) * 1024 ≤ (i 1).val
      ∧ (i 1).val < win0_4.index ⟨2 * (i 0).val + 1, ht⟩ (1 : Fin 3) * 1024 + 1024
    omega
  | ⟨2, _⟩ =>
    show win0_4.index ⟨2 * (i 0).val + 1, ht⟩ (2 : Fin 3) * 1024 ≤ (i 2).val
      ∧ (i 2).val < win0_4.index ⟨2 * (i 0).val + 1, ht⟩ (2 : Fin 3) * 1024 + 1024
    omega

/-- The output window's blocks lie inside the array, so the part of a block that is written back is all of it. -/
theorem cut_id (X : Vec Ideal S1x1024x1024 .f32) : (cfg0.win 4).cut (grid0.coords t) X = X := rfl

end Cert.KernelIdeal.BlockReads

end
-- ==== Proof.RowLaw.lean ====
/-
  The row evaluated one half of the keys at a time is the softmax row.

  With real scores s and values v, write m₁ for the maximum of the scores of the first 512 keys and M for the maximum
  of all of them. The first pass leaves (m₁, Σ_lo exp (s − m₁), Σ_lo exp (s − m₁)·v): it starts from a running maximum
  of −∞, and exp (−∞ − m₁) = 0 wipes the initial zeros. The second pass rescales both sums by exp (m₁ − M) and adds the
  second half's terms at M; since exp (m₁ − M)·exp (s − m₁) = exp (s − M), the sums become Σ_all exp (s − M) and
  Σ_all exp (s − M)·v, and their quotient is Σ_all (exp (s − M) / Σ_all exp (s − M))·v, the softmax row. Everything is a
  real number, so the arithmetic is the reals'.
-/
import proofs.«102071_j3822520893581_2_alg».proof.Proof.Spec

noncomputable section

open scoped BigOperators

namespace Cert.Spec

open Idealize.ShloMosaic

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over 1024 keys is the sum over the first 512 plus the sum over the last 512. -/
theorem sum_halves {M : Type*} [AddCommMonoid M] (f : Fin 1024 → M) :
    ∑ q, f q = ∑ j : Fin 512, f ⟨j.val, by omega⟩ + ∑ j : Fin 512, f ⟨512 + j.val, by omega⟩ :=
  Fin.sum_univ_add (a := 512) (b := 512) f

/-- A supremum over 1024 keys is the larger of the suprema over the two halves. -/
theorem iSup_halves (s : Fin 1024 → EReal) : (⨆ q, s q) = max (⨆ j, lo s j) (⨆ j, hi s j) := by
  apply le_antisymm
  · refine iSup_le fun q => ?_
    by_cases h : q.val < 512
    · exact le_max_of_le_left (le_iSup_of_le (⟨q.val, h⟩ : Fin 512) (le_of_eq rfl))
    · refine le_max_of_le_right (le_iSup_of_le (⟨q.val - 512, by omega⟩ : Fin 512) (le_of_eq ?_))
      show s q = s ⟨512 + (q.val - 512), _⟩
      congr 1; apply Fin.ext; show q.val = 512 + (q.val - 512); omega
  · exact max_le (iSup_le fun j => le_iSup s _) (iSup_le fun j => le_iSup s _)

/-- The supremum of 512 real numbers is one of them, so a real number. -/
theorem iSup_real (f : Fin 512 → ℝ) : ∃ r : ℝ, (⨆ j, (f j : EReal)) = (r : EReal) := by
  obtain ⟨j, hj⟩ := exists_eq_ciSup_of_finite (f := fun j : Fin 512 => (f j : EReal))
  exact ⟨f j, hj.symm⟩

/-- The first pass, from a running maximum of −∞ and zero sums, over real scores f with maximum m and real values g. -/
theorem first_pass (f g : Fin 512 → ℝ) (m : ℝ) (hm : (⨆ j, (f j : EReal)) = (m : EReal)) :
    maxStep ⊥ (fun j => (f j : EReal)) = (m : EReal)
    ∧ denStep ⊥ 0 (fun j => (f j : EReal)) = ((∑ j, Real.exp (f j - m) : ℝ) : EReal)
    ∧ numStep ⊥ 0 (fun j => (f j : EReal)) (fun j => (g j : EReal)) = ((∑ j, Real.exp (f j - m) * g j : ℝ) : EReal) := by
  have h1 : maxStep ⊥ (fun j => (f j : EReal)) = (m : EReal) := by
    unfold maxStep; rw [hm]; exact max_eq_right bot_le
  have hb : (⊥ : EReal) - (m : EReal) = ⊥ := by rw [sub_eq_add_neg]; exact EReal.bot_add _
  refine ⟨h1, ?_, ?_⟩
  · unfold denStep; rw [h1, hb, Ideal.exp_bot, zero_mul, zero_add, coe_sum]
    exact Finset.sum_congr rfl fun j _ => by
      show Ideal.exp ((f j : EReal) - (m : EReal)) = _
      rw [← EReal.coe_sub, Ideal.exp_coe]
  · unfold numStep; rw [h1, hb, Ideal.exp_bot, zero_mul, zero_add, coe_sum]
    exact Finset.sum_congr rfl fun j _ => by
      show Ideal.exp ((f j : EReal) - (m : EReal)) * (g j : EReal) = _
      rw [← EReal.coe_sub, Ideal.exp_coe, ← EReal.coe_mul]

/-- A later pass, from a real running maximum m and real sums l and o, over real scores f with maximum m'. -/
theorem next_pass (f g : Fin 512 → ℝ) (m m' l o : ℝ) (hm : (⨆ j, (f j : EReal)) = (m' : EReal)) :
    maxStep (m : EReal) (fun j => (f j : EReal)) = ((max m m' : ℝ) : EReal)
    ∧ denStep (m : EReal) (l : EReal) (fun j => (f j : EReal))
        = ((Real.exp (m - max m m') * l + ∑ j, Real.exp (f j - max m m') : ℝ) : EReal)
    ∧ numStep (m : EReal) (o : EReal) (fun j => (f j : EReal)) (fun j => (g j : EReal))
        = ((Real.exp (m - max m m') * o + ∑ j, Real.exp (f j - max m m') * g j : ℝ) : EReal) := by
  have h1 : maxStep (m : EReal) (fun j => (f j : EReal)) = ((max m m' : ℝ) : EReal) := by
    unfold maxStep; rw [hm]; exact (EReal.coe_strictMono.monotone.map_max).symm
  refine ⟨h1, ?_, ?_⟩
  · unfold denStep; rw [h1, EReal.coe_add, EReal.coe_mul, coe_sum, ← EReal.coe_sub, Ideal.exp_coe]
    congr 1
  · unfold numStep; rw [h1, EReal.coe_add, EReal.coe_mul, coe_sum, ← EReal.coe_sub, Ideal.exp_coe]
    congr 1

/-- The quotient of two real numbers with a nonzero divisor is the reals' quotient. -/
theorem div_real (a b : ℝ) (hb : b ≠ 0) : Ideal.div (a : EReal) (b : EReal) = ((a / b : ℝ) : EReal) := by
  rw [Ideal.div_coe hb, ← EReal.coe_mul]; congr 1; ring

/-- For real scores and values, the row evaluated one half of the keys at a time is the softmax row. -/
theorem online_eq_soft_real (sr vr : Fin 1024 → ℝ) :
    onlineRow (fun q => (sr q : EReal)) (fun q => (vr q : EReal))
      = softRow (fun q => (sr q : EReal)) (fun q => (vr q : EReal)) := by
  obtain ⟨m1, hm1⟩ := iSup_real (fun j => sr ⟨j.val, by omega⟩)
  obtain ⟨m2, hm2⟩ := iSup_real (fun j => sr ⟨512 + j.val, by omega⟩)
  obtain ⟨ha, hb, hc⟩ := first_pass (fun j => sr ⟨j.val, by omega⟩) (fun j => vr ⟨j.val, by omega⟩) m1 hm1
  obtain ⟨_, hd, he⟩ := next_pass (fun j => sr ⟨512 + j.val, by omega⟩) (fun j => vr ⟨512 + j.val, by omega⟩) m1 m2
    (∑ j : Fin 512, Real.exp (sr ⟨j.val, by omega⟩ - m1)) (∑ j : Fin 512, Real.exp (sr ⟨j.val, by omega⟩ - m1) * vr ⟨j.val, by omega⟩) hm2
  -- the maximum of all the scores
  have hM : (⨆ q, ((sr q : ℝ) : EReal)) = ((max m1 m2 : ℝ) : EReal) := by
    rw [iSup_halves, EReal.coe_strictMono.monotone.map_max, ← hm1, ← hm2]; rfl
  set M : ℝ := max m1 m2 with hMdef
  -- exp (m₁ − M) · exp (s − m₁) = exp (s − M)
  have key : ∀ x : ℝ, Real.exp (m1 - M) * Real.exp (x - m1) = Real.exp (x - M) := fun x => by
    rw [← Real.exp_add]; congr 1; ring
  -- the two sums after the second pass are the sums over all the keys at M
  have hden : Real.exp (m1 - M) * (∑ j : Fin 512, Real.exp (sr ⟨j.val, by omega⟩ - m1))
      + ∑ j : Fin 512, Real.exp (sr ⟨512 + j.val, by omega⟩ - M) = ∑ q, Real.exp (sr q - M) := by
    rw [sum_halves (fun q => Real.exp (sr q - M)), Finset.mul_sum]
    congr 1
    exact Finset.sum_congr rfl fun j _ => key _
  have hnum : Real.exp (m1 - M) * (∑ j : Fin 512, Real.exp (sr ⟨j.val, by omega⟩ - m1) * vr ⟨j.val, by omega⟩)
      + ∑ j : Fin 512, Real.exp (sr ⟨512 + j.val, by omega⟩ - M) * vr ⟨512 + j.val, by omega⟩
        = ∑ q, Real.exp (sr q - M) * vr q := by
    rw [sum_halves (fun q => Real.exp (sr q - M) * vr q), Finset.mul_sum]
    congr 1
    exact Finset.sum_congr rfl fun j _ => by rw [← mul_assoc, key]
  have hpos : (∑ q, Real.exp (sr q - M)) ≠ 0 :=
    ne_of_gt (Finset.sum_pos (fun q _ => Real.exp_pos _) Finset.univ_nonempty)
  -- the row one half at a time
  have lhs : onlineRow (fun q => (sr q : EReal)) (fun q => (vr q : EReal))
      = max (((∑ q, Real.exp (sr q - M) * vr q) / (∑ q, Real.exp (sr q - M)) : ℝ) : EReal) 0 := by
    unfold onlineRow
    show max (Ideal.div
        (numStep (maxStep ⊥ (fun j : Fin 512 => ((sr ⟨j.val, _⟩ : ℝ) : EReal)))
          (numStep ⊥ 0 (fun j : Fin 512 => ((sr ⟨j.val, _⟩ : ℝ) : EReal)) (fun j : Fin 512 => ((vr ⟨j.val, _⟩ : ℝ) : EReal)))
          (fun j : Fin 512 => ((sr ⟨512 + j.val, _⟩ : ℝ) : EReal)) (fun j : Fin 512 => ((vr ⟨512 + j.val, _⟩ : ℝ) : EReal)))
        (denStep (maxStep ⊥ (fun j : Fin 512 => ((sr ⟨j.val, _⟩ : ℝ) : EReal)))
          (denStep ⊥ 0 (fun j : Fin 512 => ((sr ⟨j.val, _⟩ : ℝ) : EReal)))
          (fun j : Fin 512 => ((sr ⟨512 + j.val, _⟩ : ℝ) : EReal)))) 0 = _
    rw [ha, hb, hc, hd, he, hden, hnum, div_real _ _ hpos]
  -- the softmax row
  have rhs : softRow (fun q => (sr q : EReal)) (fun q => (vr q : EReal))
      = max (((∑ q, Real.exp (sr q - M) * vr q) / (∑ q, Real.exp (sr q - M)) : ℝ) : EReal) 0 := by
    unfold softRow
    rw [hM, max_eq_right bot_le]
    have hE : ∀ q, Ideal.exp ((sr q : EReal) - (M : EReal)) = ((Real.exp (sr q - M) : ℝ) : EReal) := fun q => by
      rw [← EReal.coe_sub, Ideal.exp_coe]
    have hL : (∑ q, Ideal.exp ((sr q : EReal) - (M : EReal))) = ((∑ q, Real.exp (sr q - M) : ℝ) : EReal) := by
      rw [coe_sum]; exact Finset.sum_congr rfl fun q _ => hE q
    rw [hL]
    congr 1
    rw [Finset.sum_div, coe_sum Finset.univ (fun q => Real.exp (sr q - M) * vr q / ∑ q, Real.exp (sr q - M))]
    refine Finset.sum_congr rfl fun q _ => ?_
    show Ideal.div (Ideal.exp ((sr q : EReal) - (M : EReal))) _ * (vr q : EReal) = _
    rw [hE q, div_real _ _ hpos, ← EReal.coe_mul]; congr 1; ring
  rw [lhs, rhs]

/-- The same for extended-real scores and values every one of which is a real number. -/
theorem online_eq_soft (s v : Fin 1024 → EReal) (hs : ∀ q, ∃ r : ℝ, s q = (r : EReal)) (hv : ∀ q, ∃ r : ℝ, v q = (r : EReal)) :
    onlineRow s v = softRow s v := by
  choose sr hsr using hs
  choose vr hvr using hv
  obtain rfl : s = fun q => (sr q : EReal) := funext hsr
  obtain rfl : v = fun q => (vr q : EReal) := funext hvr
  exact online_eq_soft_real sr vr

end Cert.Spec

end
-- ==== Proof.RealScores.lean ====
/-
  With real inputs the scores and the values are real numbers.

  A score is a finite sum of products of entries of P with key projections, a key projection a finite sum of
  products of entries of Q and W plus a bias entry; when every entry is a real number so is every score.
-/
import proofs.«102071_j3822520893581_2_alg».proof.Proof.RowLaw

noncomputable section

open scoped BigOperators

namespace Cert.Spec

open Idealize.ShloMosaic Idealize.ShloMosaic.ValueIdx

/-- Every score is a real number when every entry of the four arrays is. -/
theorem score_real (P Q : Arr3) (W : Arr2) (bias : Arr1)
    (hP : ∀ i, ∃ r : ℝ, P i = (r : EReal)) (hQ : ∀ i, ∃ r : ℝ, Q i = (r : EReal))
    (hW : ∀ i, ∃ r : ℝ, W i = (r : EReal)) (hB : ∀ i, ∃ r : ℝ, bias i = (r : EReal))
    (b : Fin 16) (p q : Fin 1024) : ∃ r : ℝ, score P Q W bias b p q = (r : EReal) := by
  choose Pr hPr using hP
  choose Qr hQr using hQ
  choose Wr hWr using hW
  choose Br hBr using hB
  refine ⟨∑ h : Fin 1024, Pr (ix3 b p h) * ((∑ h' : Fin 1024, Qr (ix3 b q h') * Wr (ix2 h' h)) + Br (ix1 h)), ?_⟩
  unfold score key
  rw [coe_sum]
  refine Finset.sum_congr rfl fun h _ => ?_
  rw [EReal.coe_mul, EReal.coe_add, coe_sum, hPr, hBr]
  refine congrArg (_ * ·) (congrArg (· + _) (Finset.sum_congr rfl fun h' _ => ?_))
  rw [EReal.coe_mul, hQr, hWr]

/-- The row evaluated one half of the keys at a time is the attention result, at every entry, for real inputs. -/
theorem online_eq_attend (P Q : Arr3) (W : Arr2) (bias : Arr1)
    (hP : ∀ i, ∃ r : ℝ, P i = (r : EReal)) (hQ : ∀ i, ∃ r : ℝ, Q i = (r : EReal))
    (hW : ∀ i, ∃ r : ℝ, W i = (r : EReal)) (hB : ∀ i, ∃ r : ℝ, bias i = (r : EReal))
    (b : Fin 16) (p h : Fin 1024) :
    onlineRow (fun q => score P Q W bias b p q) (fun q => Q (ix3 b q h)) = attend P Q W bias (ix3 b p h) :=
  online_eq_soft _ _ (fun q => score_real P Q W bias hP hQ hW hB b p q) (fun q => hQ _)

end Cert.Spec

end
-- ==== Proof.KernelAttend.lean ====
/-
  The idealized kernel leaves the attention result in its output array.

  Batch entry b is worked on at grid points 2b and 2b + 1. Point 2b resets the running maximum, denominator and
  output block and takes keys 0..511; point 2b + 1 continues from what point 2b left, takes keys 512..1023, divides and
  takes the max with 0; only then is the output block written back, to rows (b, ·, ·) of the result. The blocks'
  scores are the arrays' scores (the query block is rows (b, ·, ·) of P, the key block rows (b, 512·kv + ·, ·) of Q), so
  entry (b, p, h) of the result is the row of (b, p) evaluated one half of the keys at a time against the values
  Q[b, ·, h], which for real inputs is the softmax row. The odd points' blocks cover the result array.
-/
import proofs.«102071_j3822520893581_2_alg».proof.Proof.Gen.KernelIdeal.Value
import proofs.«102071_j3822520893581_2_alg».proof.Proof.Pieces
import proofs.«102071_j3822520893581_2_alg».proof.Proof.KernelRows
import proofs.«102071_j3822520893581_2_alg».proof.Proof.BlockReads
import proofs.«102071_j3822520893581_2_alg».proof.Proof.RealScores

noncomputable section

open scoped BigOperators

namespace Cert.KernelIdeal.Attend

open Cert.KernelIdeal Cert.KernelIdeal.Gen Idealize.ShloMosaic Idealize.ShloMosaic.ValueIdx Idealize.ShloMosaic.TcCoe
open Idealize.SL.Sem Cert.Spec Cert.KernelIdeal.Rows Cert.KernelIdeal.BlockReads
open Idealize.ShloMosaic.Pipeline (Dat)

variable (m : (ℓ : Loc nD τ sig) → Buf (Elt Ideal) ℓ) (c : Dev nD)

/-- The argument arrays P, Q, W and the bias, as arrays of extended reals. -/
abbrev aP : Arr3 := m ((c : Thread nD τ).loc main_arg0)
abbrev aQ : Arr3 := m ((c : Thread nD τ).loc main_arg1)
abbrev aW : Arr2 := m ((c : Thread nD τ).loc main_arg2)
abbrev aB : Arr1 := m ((c : Thread nD τ).loc main_arg3)

/-- The scores of row p against the key block of point t. -/
def sAt (t : Fin cfg0.N) (p : Fin 1024) : Fin 512 → EReal := fun j =>
  blkScore (iblk (F := Ideal) m c 0 t : Vec Ideal S1x1024x1024 .bf16) (iblk (F := Ideal) m c 1 t : Vec Ideal S1x512x1024 .bf16)
    (iblk (F := Ideal) m c 2 t : Vec Ideal S1024x1024 .bf16) (iblk (F := Ideal) m c 3 t : Vec Ideal S1024 .f32) p j

/-- Column h of the value block of point t. -/
def vAt (t : Fin cfg0.N) (h : Fin 1024) : Fin 512 → EReal := fun j =>
  (iblk (F := Ideal) m c 1 t : Vec Ideal S1x512x1024 .bf16) (ix3 (0 : Fin 1) j h)

/-- The block's scores are the arrays' scores: key j of the block of point t is key 512·(t % 2) + j of batch entry t / 2. -/
theorem sAt_eq (t : Fin cfg0.N) (b : Fin 16) (hb : b.val = t.val / 2) (p : Fin 1024) (j : Fin 512) (q : Fin 1024)
    (hq : q.val = t.val % 2 * 512 + j.val) :
    sAt m c t p j = score (aP m c) (aQ m c) (aW m c) (aB m c) b p q := by
  obtain rfl : b = ⟨t.val / 2, batch_lt t⟩ := Fin.ext hb
  obtain rfl : q = ⟨t.val % 2 * 512 + j.val, key_lt t j⟩ := Fin.ext hq
  unfold sAt blkScore blkKey score key
  simp only [in_p, in_q, in_w, in_b]

/-- The block's values are the array's: row j of the block of point t is row 512·(t % 2) + j of Q's batch entry t / 2. -/
theorem vAt_eq (t : Fin cfg0.N) (b : Fin 16) (hb : b.val = t.val / 2) (h : Fin 1024) (j : Fin 512) (q : Fin 1024)
    (hq : q.val = t.val % 2 * 512 + j.val) :
    vAt m c t h j = aQ m c (ix3 b q h) := by
  obtain rfl : b = ⟨t.val / 2, batch_lt t⟩ := Fin.ext hb
  obtain rfl : q = ⟨t.val % 2 * 512 + j.val, key_lt t j⟩ := Fin.ext hq
  unfold vAt
  exact in_q m c t j h

/-- What an even point leaves, at row p (and column h): the first pass from (−∞, 0, 0) over its block. -/
theorem first_vals (n : ℕ) (hn : n < cfg0.N) (h0 : n % 2 = 0) (p h : Fin 1024) :
    (outsAt0 m c n hn).2.1 (ix2 p (0 : Fin 1)) = maxStep ⊥ (sAt m c ⟨n, hn⟩ p)
    ∧ (outsAt0 m c n hn).2.2 (ix2 p (0 : Fin 1)) = denStep ⊥ 0 (sAt m c ⟨n, hn⟩ p)
    ∧ (outsAt0 m c n hn).1 (ix3 (0 : Fin 1) p h) = numStep ⊥ 0 (sAt m c ⟨n, hn⟩ p) (vAt m c ⟨n, hn⟩ h) := by
  have hA := outsAt0_A m c ⟨n, hn⟩ h0 (by show ¬ n % 2 = 1; omega)
  rw [show outsAt0 m c n hn = _ from hA]
  dsimp only
  rw [Pieces.max_first, Pieces.den_first, Pieces.num_first]
  refine ⟨?_, ?_, ?_⟩
  · rw [keep_blk, max_blk, bot_max]; rfl
  · rw [den_blk, bot_max, zero_den]; rfl
  · rw [num_blk, bot_max, zero_out]; rfl

/-- What an odd point leaves in the output block, at (p, h): the row of (t / 2, p) evaluated one half of the keys
    at a time, against column h of the values. -/
theorem second_val (t : Fin cfg0.N) (h1 : t.val % 2 = 1) (p h : Fin 1024) :
    (outsAt0 m c t.val t.isLt).1 (ix3 (0 : Fin 1) p h)
      = onlineRow (fun q => score (aP m c) (aQ m c) (aW m c) (aB m c) ⟨t.val / 2, batch_lt t⟩ p q)
          (fun q => aQ m c (ix3 ⟨t.val / 2, batch_lt t⟩ q h)) := by
  have hlt := point_lt t
  rw [outsAt0_B m c t (by omega) h1]
  dsimp only
  rw [Pieces.out_second, out_blk, num_blk, den_blk]
  obtain ⟨hm, hl, ho⟩ := first_vals m c (t.val - 1) (Nat.lt_of_le_of_lt (Nat.sub_le _ _) t.isLt) (by omega) p h
  rw [hm, hl, ho]
  unfold onlineRow
  have e0 : sAt m c ⟨t.val - 1, Nat.lt_of_le_of_lt (Nat.sub_le _ _) t.isLt⟩ p
      = lo (fun q => score (aP m c) (aQ m c) (aW m c) (aB m c) ⟨t.val / 2, batch_lt t⟩ p q) :=
    funext fun j => sAt_eq m c _ _ (by show t.val / 2 = (t.val - 1) / 2; omega) p j _
      (by show j.val = (t.val - 1) % 2 * 512 + j.val; omega)
  have e1 : sAt m c t p = hi (fun q => score (aP m c) (aQ m c) (aW m c) (aB m c) ⟨t.val / 2, batch_lt t⟩ p q) :=
    funext fun j => sAt_eq m c t _ rfl p j _ (by show 512 + j.val = t.val % 2 * 512 + j.val; omega)
  have f0 : vAt m c ⟨t.val - 1, Nat.lt_of_le_of_lt (Nat.sub_le _ _) t.isLt⟩ h
      = lo (fun q => aQ m c (ix3 ⟨t.val / 2, batch_lt t⟩ q h)) :=
    funext fun j => vAt_eq m c _ _ (by show t.val / 2 = (t.val - 1) / 2; omega) h j _
      (by show j.val = (t.val - 1) % 2 * 512 + j.val; omega)
  have f1 : vAt m c t h = hi (fun q => aQ m c (ix3 ⟨t.val / 2, batch_lt t⟩ q h)) :=
    funext fun j => vAt_eq m c t _ rfl h j _ (by show 512 + j.val = t.val % 2 * 512 + j.val; omega)
  rw [← e0, ← e1, ← f0, ← f1]
  rfl

variable (hP : ∀ i, ∃ r : ℝ, aP m c i = (r : EReal)) (hQ : ∀ i, ∃ r : ℝ, aQ m c i = (r : EReal))
  (hW : ∀ i, ∃ r : ℝ, aW m c i = (r : EReal)) (hB : ∀ i, ∃ r : ℝ, aB m c i = (r : EReal))

include hP hQ hW hB in
/-- What an odd point writes back is its block of the attention result. -/
theorem written_back (t : Fin cfg0.N) (hf : (cfg0.win 4).flush t = true) :
    (dats m 0 c).flushed 4 t
      = ((cfg0.win 4).blk t).view.read (Elt Ideal) (attend (aP m c) (aQ m c) (aW m c) (aB m c)) := by
  have h1 := flush_odd t hf
  rw [Cert.KernelIdeal.Value.flushed4, cut_id]
  funext (y : S1x1024x1024.Idx)
  obtain ⟨p, h, rfl⟩ : ∃ (p h : Fin 1024), y = ix3 (0 : Fin 1) p h := ⟨y 1, y 2, by
    funext a
    match a with
    | ⟨0, _⟩ => exact Fin.ext (by have h0 : (y 0).val < 1 := (y 0).isLt; show (y 0).val = 0; omega)
    | ⟨1, _⟩ => rfl
    | ⟨2, _⟩ => rfl⟩
  rw [out_read c t, second_val m c t h1]
  exact online_eq_attend _ _ _ _ hP hQ hW hB _ p h

include hP hQ hW hB in
/-- After the run the output array is the attention result. -/
theorem result_array :
    (dats m 0 c).arrAt 4 cfg0.N = attend (aP m c) (aQ m c) (aW m c) (aB m c) :=
  (dats m 0 c).arrAt_eq_of_cover 4 (attend (aP m c) (aQ m c) (aW m c) (aB m c))
    (fun t hf => written_back m c hP hQ hW hB t hf) cover_out

end Cert.KernelIdeal.Attend

end
-- ==== Proof.RefAttend.lean ====
/-
  The reference program's result is softmax attention followed by max with 0.

  The reference computes, one operation at a time: the key projection K = Q·W + bias, the scores S = P·Kᵀ, each
  row's maximum M (a maximum-reduction started from −∞, then max with −∞), the exponentials e = exp (S − M), each
  row's sum of exponentials, the quotients e / Σ e, their product with the values Q, and the max with 0. Reading
  every operation at an index with explicit coordinates (b, p, h) gives, stage by stage, the terms of the
  specification function: the key projection, the score, the row maximum, the exponential, the denominator, the
  weight, the weighted sum, and the final max with 0.
-/
import proofs.«102071_j3822520893581_2_alg».proof.Proof.Gen.ReferenceIdeal.Read
import proofs.«102071_j3822520893581_2_alg».proof.Proof.Spec
import proofs.«102071_j3822520893581_2_alg».proof.Proof.LibMaxReduce
import Idealize.ShloMosaic.Lib.ValueIdx
import Idealize.ShloMosaic.PureOps.Ideal.Laws

noncomputable section

open scoped BigOperators

namespace Cert.RefAttend

open Idealize.ShloMosaic Idealize.ShloMosaic.ValueIdx Cert.ReferenceIdeal Cert.ReferenceIdeal.Gen Cert.ReferenceIdeal.Read

/-! ## The generated index functions at explicit coordinates -/

/-- The key projection's left operand index at (b, q, k), contraction coordinate h, is (b, q, h). -/
theorem lidx_v0 (b : Fin 16) (q k h : Fin 1024) : lidx_main_v0 (ix3 b q k) h = ix3 b q h :=
  funext fun a => Fin.ext (by match a with | ⟨0, _⟩ => rfl | ⟨1, _⟩ => rfl | ⟨2, _⟩ => rfl)

/-- The key projection's right operand index at (b, q, k), contraction coordinate h, is (h, k). -/
theorem ridx_v0 (b : Fin 16) (q k h : Fin 1024) : ridx_main_v0 (ix3 b q k) h = ix2 h k :=
  funext fun a => Fin.ext (by match a with | ⟨0, _⟩ => rfl | ⟨1, _⟩ => rfl)

/-- The bias, broadcast twice, is read at (b, q, k) at its coordinate k. -/
theorem idx_v1v2 (b : Fin 16) (q k : Fin 1024) : idx_main_v1 (idx_main_v2 (ix3 b q k)) = ix1 k :=
  funext fun a => Fin.ext (by match a with | ⟨0, _⟩ => rfl)

/-- The score's left operand index at (b, p, q), contraction coordinate h, is (b, p, h). -/
theorem lidx_v4 (b : Fin 16) (p q h : Fin 1024) : lidx_main_v4 (ix3 b p q) h = ix3 b p h :=
  funext fun a => Fin.ext (by match a with | ⟨0, _⟩ => rfl | ⟨1, _⟩ => rfl | ⟨2, _⟩ => rfl)

/-- The score's right operand index at (b, p, q), contraction coordinate h, is (b, q, h). -/
theorem ridx_v4 (b : Fin 16) (p q h : Fin 1024) : ridx_main_v4 (ix3 b p q) h = ix3 b q h :=
  funext fun a => Fin.ext (by match a with | ⟨0, _⟩ => rfl | ⟨1, _⟩ => rfl | ⟨2, _⟩ => rfl)

/-- The row maximum, broadcast twice, is read at (b, p, q) at (b, p). -/
theorem idx_v8v9 (b : Fin 16) (p q : Fin 1024) : idx_main_v8 (idx_main_v9 (ix3 b p q)) = ix2 b p :=
  funext fun a => Fin.ext (by match a with | ⟨0, _⟩ => rfl | ⟨1, _⟩ => rfl)

/-- The row sum's operand index at (b, p), summation coordinate q, is (b, p, q). -/
theorem idx_v12 (b : Fin 16) (p q : Fin 1024) : idx_main_v12 (ix2 b p) q = ix3 b p q :=
  funext fun a => Fin.ext (by match a with | ⟨0, _⟩ => rfl | ⟨1, _⟩ => rfl | ⟨2, _⟩ => rfl)

/-- The row sum, broadcast twice, is read at (b, p, q) at (b, p). -/
theorem idx_v13v14 (b : Fin 16) (p q : Fin 1024) : idx_main_v13 (idx_main_v14 (ix3 b p q)) = ix2 b p :=
  funext fun a => Fin.ext (by match a with | ⟨0, _⟩ => rfl | ⟨1, _⟩ => rfl)

/-- The weighted sum's left operand index at (b, p, h), contraction coordinate q, is (b, p, q). -/
theorem lidx_v16 (b : Fin 16) (p h q : Fin 1024) : lidx_main_v16 (ix3 b p h) q = ix3 b p q :=
  funext fun a => Fin.ext (by match a with | ⟨0, _⟩ => rfl | ⟨1, _⟩ => rfl | ⟨2, _⟩ => rfl)

/-- The weighted sum's right operand index at (b, p, h), contraction coordinate q, is (b, q, h). -/
theorem ridx_v16 (b : Fin 16) (p h q : Fin 1024) : ridx_main_v16 (ix3 b p h) q = ix3 b q h :=
  funext fun a => Fin.ext (by match a with | ⟨0, _⟩ => rfl | ⟨1, _⟩ => rfl | ⟨2, _⟩ => rfl)

/-! ## The stages -/

variable (x0 x1 : (⟨S16x1024x1024, .f32⟩ : BufTy).Contents (Elt Ideal))
  (x2 : (⟨S1024x1024, .f32⟩ : BufTy).Contents (Elt Ideal)) (x3 : (⟨S1024, .f32⟩ : BufTy).Contents (Elt Ideal))

/-- The reference's projected keys at (b, q, k) are the specification's key projection
    Σ_h Q[b,q,h] · W[h,k] + bias[k]. -/
theorem key_eq (b : Fin 16) (q k : Fin 1024) :
    val_main_v3 (F := Ideal) x1 x2 x3 (ix3 b q k) = Cert.Spec.key x1 x2 x3 b q k := by
  rw [val_main_v3_apply, val_main_v0_apply, val_main_v2_apply, val_main_v1_apply]
  simp only [lidx_v0, ridx_v0, idx_v1v2, Ideal.addf_def]
  rfl

/-- The reference's scores at (b, p, q) are the specification's score Σ_h P[b,p,h] · K[b,q,h]. -/
theorem score_eq (b : Fin 16) (p q : Fin 1024) :
    val_main_v4 (F := Ideal) x0 x1 x2 x3 (ix3 b p q) = Cert.Spec.score x0 x1 x2 x3 b p q := by
  rw [val_main_v4_apply]
  simp only [lidx_v4, ridx_v4, key_eq]
  rfl

/-- The reference's maximum-reduction of the scores at (b, p) is the supremum of the row's scores. -/
theorem rowsup_eq (b : Fin 16) (p : Fin 1024) :
    val_main_v5 (F := Ideal) x0 x1 x2 x3 (ix2 b p) = ⨆ q : Fin 1024, Cert.Spec.score x0 x1 x2 x3 b p q := by
  unfold val_main_v5 val_main_cst
  refine (Cert.Lib.MaxReduce.hostMaxReduce_single _ reducesTo_S16x1024x1024_S16x1024_d2
    (by decide : S16x1024x1024.Reduces [2] S16x1024) h_S_ (ix2 b p)).trans ?_
  show (⨆ k : Fin 1024, _) = _
  refine iSup_congr fun k => ?_
  rw [← score_eq]
  congr 1
  funext c
  apply Fin.ext
  fin_cases c <;> rfl

/-- The reference's row maximum at (b, p) is max (−∞) (sup of the row's scores). -/
theorem rowmax_eq (b : Fin 16) (p : Fin 1024) :
    val_main_v7 (F := Ideal) x0 x1 x2 x3 (ix2 b p)
      = max ⊥ (⨆ q : Fin 1024, Cert.Spec.score x0 x1 x2 x3 b p q) := by
  rw [val_main_v7_apply, val_main_v6_apply, val_main_cst_0_apply, rowsup_eq]
  simp only [Ideal.maximumf_def, Ideal.ofBits_def, Cert.Lib.MaxReduce.ofBits_neg_inf_f32]

/-- The reference's exponentials at (b, p, q) are exp (s_q − M), M the row maximum. -/
theorem exp_eq (b : Fin 16) (p q : Fin 1024) :
    val_main_v11 (F := Ideal) x0 x1 x2 x3 (ix3 b p q)
      = Ideal.exp (Cert.Spec.score x0 x1 x2 x3 b p q
          - max ⊥ (⨆ q' : Fin 1024, Cert.Spec.score x0 x1 x2 x3 b p q')) := by
  rw [val_main_v11_apply, val_main_v10_apply, val_main_v9_apply, val_main_v8_apply, idx_v8v9, rowmax_eq, score_eq]
  simp only [Ideal.subf_def, Ideal.hostUnary_exp_def]

/-- The reference's row sum at (b, p) is the sum of the row's exponentials. -/
theorem den_eq (b : Fin 16) (p : Fin 1024) :
    val_main_v12 (F := Ideal) x0 x1 x2 x3 (ix2 b p)
      = ∑ q'' : Fin 1024, Ideal.exp (Cert.Spec.score x0 x1 x2 x3 b p q''
          - max ⊥ (⨆ q' : Fin 1024, Cert.Spec.score x0 x1 x2 x3 b p q')) := by
  rw [val_main_v12_apply, val_main_cst_1_apply]
  simp only [idx_v12, exp_eq, Ideal.ofBits_def, Ideal.ofBits_zero_f32, zero_add]

/-- The reference's weights at (b, p, q) are the exponential over the row's sum of exponentials. -/
theorem weight_eq (b : Fin 16) (p q : Fin 1024) :
    val_main_v15 (F := Ideal) x0 x1 x2 x3 (ix3 b p q)
      = Ideal.div (Ideal.exp (Cert.Spec.score x0 x1 x2 x3 b p q
          - max ⊥ (⨆ q' : Fin 1024, Cert.Spec.score x0 x1 x2 x3 b p q')))
        (∑ q'' : Fin 1024, Ideal.exp (Cert.Spec.score x0 x1 x2 x3 b p q''
          - max ⊥ (⨆ q' : Fin 1024, Cert.Spec.score x0 x1 x2 x3 b p q'))) := by
  rw [val_main_v15_apply, val_main_v14_apply, val_main_v13_apply, idx_v13v14, den_eq, exp_eq]
  simp only [Ideal.hostDivf_def]

/-- The reference's result is the specification function: at every (b, p, h) the softmax row of the scores of
    (b, p) against the values Q[b,·,h], followed by max with 0. -/
theorem ref_is_attend (x0 x1 : (⟨S16x1024x1024, .f32⟩ : BufTy).Contents (Elt Ideal))
    (x2 : (⟨S1024x1024, .f32⟩ : BufTy).Contents (Elt Ideal)) (x3 : (⟨S1024, .f32⟩ : BufTy).Contents (Elt Ideal)) :
    Cert.ReferenceIdeal.Read.val_main_v17 (F := Ideal) x0 x1 x2 x3 = Cert.Spec.attend x0 x1 x2 x3 := by
  funext i
  obtain ⟨b, p, h, rfl⟩ : ∃ b p h, i = ix3 b p h := ⟨i 0, i 1, i 2, eq_ix3 i⟩
  rw [val_main_v17_apply, val_main_v16_apply, val_main_call0_v0_apply, val_main_call0_cst_apply]
  simp only [lidx_v16, ridx_v16, weight_eq, Ideal.maximumf_def, Ideal.ofBits_def, Ideal.ofBits_zero_f32]
  rfl

end Cert.RefAttend

end
-- ==== Proof.LibRealEntries.lean ====
/-
  Arrays of extended reals all of whose entries are real numbers.

  The property passes through everything a chain of dense layers is made of: reading an array at
  re-arranged indices (transposes, slices, reshapes, broadcasts are all of the form j ↦ x (f j)), entrywise
  sums, and a dot_general, whose entry is a finite sum of products of entries.  It is what a precondition
  "every input is finite" gives for the inputs: an entry whose absolute value is below +∞ is neither +∞ nor −∞.
-/
import Idealize.ShloMosaic.PureOps.Ideal.Laws
import Idealize.ShloMosaic.Lib.ReduceAll
import Idealize.ShloMosaic.Lib.ValueIdx

noncomputable section

namespace RealEntries

open Idealize.ShloMosaic

/-- Every entry of the array is a real number (neither infinity). -/
def IsReal {ι : Type} (v : ι → EReal) : Prop := ∀ i, ∃ r : ℝ, v i = (r : EReal)

/-- Reading a real-valued array at re-arranged indices gives a real-valued array. -/
theorem IsReal.comp {ι κ : Type} {v : ι → EReal} (h : IsReal v) (f : κ → ι) : IsReal (fun j => v (f j)) :=
  fun j => h (f j)

/-- The entrywise sum of two real-valued arrays is real-valued. -/
theorem IsReal.add {ι : Type} {v w : ι → EReal} (hv : IsReal v) (hw : IsReal w) : IsReal (fun i => v i + w i) := fun i => by
  obtain ⟨a, ha⟩ := hv i
  obtain ⟨b, hb⟩ := hw i
  exact ⟨a + b, by show v i + w i = _; rw [ha, hb, EReal.coe_add]⟩

/-- A finite sum of real numbers read in the extended reals is a real number. -/
theorem exists_real_sum {κ : Type} (s : Finset κ) (f : κ → EReal) (h : ∀ k, ∃ r : ℝ, f k = (r : EReal)) :
    ∃ r : ℝ, ∑ k ∈ s, f k = (r : EReal) := by
  classical
  refine Finset.induction_on s ⟨0, by simp⟩ ?_
  intro a s ha ⟨r, hr⟩
  obtain ⟨b, hb⟩ := h a
  exact ⟨b + r, by rw [Finset.sum_insert ha, hr, hb, EReal.coe_add]⟩

/-- An array whose entry at i is a finite sum over k of products of entries of two real-valued arrays is real-valued. -/
theorem isReal_sum_mul {ι κ α β : Type} [Fintype κ] {l : α → EReal} {r : β → EReal} (hl : IsReal l) (hr : IsReal r)
    (f : ι → κ → α) (g : ι → κ → β) : IsReal (fun i => ∑ k, l (f i k) * r (g i k)) := fun i =>
  exists_real_sum _ _ fun k => by
    obtain ⟨a, ha⟩ := hl (f i k)
    obtain ⟨b, hb⟩ := hr (g i k)
    exact ⟨a * b, by show l (f i k) * r (g i k) = _; rw [ha, hb, EReal.coe_mul]⟩

variable {s t : Shape} {φ : FTy}

theorem IsReal.addf {v w : FVec Ideal s φ} (hv : IsReal v) (hw : IsReal w) : IsReal (addf v w) := hv.add hw

theorem IsReal.transpose {v : s.Idx → EReal} (hv : IsReal v) (perm : List (Fin s.rank)) (h : s.Transposes perm t) :
    IsReal (transpose t perm v h) := fun j => hv _

theorem IsReal.broadcastInDim {v : s.Idx → EReal} (hv : IsReal v) (dims : Fin s.rank → Fin t.rank) (h : s.BroadcastsInDim t dims) :
    IsReal (broadcastInDim t dims h v) := fun j => hv _

theorem IsReal.extractStridedSlice {v : s.Idx → EReal} (hv : IsReal v) (off : Fin s.rank → Nat) (h : s.Slices off t) :
    IsReal (extractStridedSlice t off v h) := fun j => hv _

theorem IsReal.shapeCast {v : s.Idx → EReal} (hv : IsReal v) (h : s.ShapeCasts t) : IsReal (shapeCast t v h) := fun j => hv _

/-- The host's dot_general of two real-valued arrays is real-valued: each entry is the sum, over the contracted
    index set, of products of entries. -/
theorem IsReal.dotGeneral {sl sr so : Shape} {φ₁ φ₂ : FTy} (d : DotDims sl sr so) (prec : Option ContractPrecision)
    {l : FVec Ideal sl φ₁} {r : FVec Ideal sr φ₂} (hl : IsReal l) (hr : IsReal r) :
    IsReal (Host.dotGeneral d prec l r : FVec Ideal so φ₁) := fun j => by
  simp only [Host.dotGeneral]
  rw [Ideal.dotGeneral_apply]
  exact isReal_sum_mul hl hr (fun j k => d.lhsIdx j k) (fun j k => d.rhsIdx j k) j

/-- An extended real whose absolute value is below +∞ is a real number. -/
theorem exists_real_of_abs_lt_top (x : EReal) (h : max x (-x) < ⊤) : ∃ r : ℝ, x = (r : EReal) := by
  induction x using EReal.rec with
  | bot => simp at h
  | coe r => exact ⟨r, rfl⟩
  | top => simp at h

/-- One conjunct of a "finite inputs" precondition: where the reduction by `and` of the entrywise comparison
    |x| < +∞ (the word 0x7F800000 broadcast from a scalar) is 1, every entry of x is a real number. -/
theorem isReal_of_all_lt_inf {axes : List (Fin s.rank)} {u : Shape} [Subsingleton t.Idx] (x : FVec Ideal s .f32)
    (bound : FVec Ideal s .f32) (hb : ∀ i, bound i = Ideal.ofBits .f32 0x7F800000#32)
    (init : u.Idx → BitVec 1) (h : s.ReducesTo axes t) (hu : 0 < u.numel) (j : t.Idx)
    (e : Host.reduce IntOp.andi (cmpf .olt (Host.absf x) bound) init h hu j = 1#1) : IsReal x := fun i => by
  have hi := Host.reduce_andi_all _ init h hu j e i
  have htop : Ideal.ofBits .f32 0x7F800000#32 = ⊤ := by simp [Ideal.ofBits, Ideal.ieee]
  rw [ValueIdx.cmpf_apply, hb i, htop] at hi
  apply exists_real_of_abs_lt_top
  have h2 : Ideal.cmp .olt (max (x i) (-(x i))) ⊤ = 1#1 := hi
  by_contra hne
  simp [Ideal.cmp, hne] at h2

end RealEntries

end
-- ==== Proof.RealInputs.lean ====
/-
  Under the precondition every entry of the four argument arrays is a real number.

  The precondition is the conjunction, over the four arguments x, of "every entry of |x| is below +∞", each
  conjunct a reduction by and of the entrywise comparison |x| < +∞ down to a single bit. The conjunction being 1
  makes each conjunct 1, a reduction by and that is 1 had a 1 at every entry, and an extended real whose absolute
  value is below +∞ is neither +∞ nor −∞: it is a real number.
-/
import proofs.«102071_j3822520893581_2_alg».proof.Pre_finite_inputs
import proofs.«102071_j3822520893581_2_alg».proof.KernelIdeal
import proofs.«102071_j3822520893581_2_alg».proof.Proof.LibRealEntries
import Idealize.ShloMosaic.Lib.ReduceAll
import Idealize.ShloMosaic.Lib.ValueIdx
import Idealize.ShloMosaic.Lib.Affine

noncomputable section

namespace Cert.RealInputs

open Idealize.ShloMosaic

/-- The scalar shape has one index: any two indices agree, having no coordinate to differ in. -/
instance subsingleton_scalar_idx : Subsingleton Cert.Pre_finite_inputs.S_.Idx :=
  ⟨fun _ _ => funext fun d => d.elim0⟩

/-- Where the precondition (the and of "all |x| < +∞" over the four argument arrays) is 1, every entry of each of
    the four arrays is a real number. -/
theorem real_of_pre [Cert.Pre_finite_inputs.Facts]
    (x0 x1 : (⟨Cert.KernelIdeal.S16x1024x1024, .f32⟩ : BufTy).Contents (Elt Ideal))
    (x2 : (⟨Cert.KernelIdeal.S1024x1024, .f32⟩ : BufTy).Contents (Elt Ideal))
    (x3 : (⟨Cert.KernelIdeal.S1024, .f32⟩ : BufTy).Contents (Elt Ideal))
    (h : Cert.Pre_finite_inputs.fn (F := Ideal) x0 x1 x2 x3 = fun _ => 1#1) :
    (∀ i, ∃ r : ℝ, x0 i = (r : EReal)) ∧ (∀ i, ∃ r : ℝ, x1 i = (r : EReal))
      ∧ (∀ i, ∃ r : ℝ, x2 i = (r : EReal)) ∧ (∀ i, ∃ r : ℝ, x3 i = (r : EReal)) := by
  have h0 : IntOp.andi (IntOp.andi (IntOp.andi _ _) _) _ = 1#1 := congrFun h ValueIdx.ix0
  obtain ⟨h012, e3⟩ := IntOp.andi_eq_one.mp h0
  obtain ⟨h01, e2⟩ := IntOp.andi_eq_one.mp h012
  obtain ⟨e0, e1⟩ := IntOp.andi_eq_one.mp h01
  exact ⟨RealEntries.isReal_of_all_lt_inf x0 _ (fun _ => rfl) _ _ _ _ e0,
    RealEntries.isReal_of_all_lt_inf x1 _ (fun _ => rfl) _ _ _ _ e1,
    RealEntries.isReal_of_all_lt_inf x2 _ (fun _ => rfl) _ _ _ _ e2,
    RealEntries.isReal_of_all_lt_inf x3 _ (fun _ => rfl) _ _ _ _ e3⟩

end Cert.RealInputs

end
-- ==== Proof.lean ====
/-
  Attention with a softmax over 1024 keys, computed by a kernel that walks the keys in two blocks of 512 with a running
  maximum, a running denominator and a running numerator per query row, against the reference that forms the whole
  softmax: out[b,p,h] = max (Σ_q softmax_q (P[b,p,·] · K[b,q,·]) · Q[b,q,h], 0) with K = Q·W + bias.

  At the extended reals the kernel's matrix products into zero accumulators are the reference's contractions, its row
  maxima and row sums over a block are suprema and sums over the block's keys, and changes of float format are the
  identity. The two programs differ in the order of evaluation only: after both blocks the kernel's running
  denominator is Σ_q exp (s_q − M) and its numerator Σ_q exp (s_q − M)·v_q with M the maximum over all keys, because
  exp (m₁ − M)·exp (s − m₁) = exp (s − M), and dividing the numerator by the denominator equals summing the quotients.
  Those two laws hold for real numbers; the precondition makes every input entry real, hence every score.

  The frames of both kernel programs and the kernel's run with its output array named, the reference's run and its
  operations read at an index are imported; what is proved by hand is that the reference's result is the attention
  function (`Cert.RefAttend`), that the kernel's output array is the attention function (`Cert.KernelIdeal.Attend`,
  over the body's values read at an entry, the blocks' places in the arrays, and the row law), and that the
  precondition gives real entries (`Cert.RealInputs`).
-/
import proofs.«102071_j3822520893581_2_alg».proof.Defs
import proofs.«102071_j3822520893581_2_alg».proof.Proof.Gen.Kernel
import proofs.«102071_j3822520893581_2_alg».proof.Proof.Gen.Kernel.Skeleton
import proofs.«102071_j3822520893581_2_alg».proof.Proof.Gen.Kernel.Launch
import proofs.«102071_j3822520893581_2_alg».proof.Proof.Gen.Kernel.Points
import proofs.«102071_j3822520893581_2_alg».proof.Proof.Gen.Kernel.Frame
import proofs.«102071_j3822520893581_2_alg».proof.Proof.Gen.KernelIdeal
import proofs.«102071_j3822520893581_2_alg».proof.Proof.Gen.KernelIdeal.Skeleton
import proofs.«102071_j3822520893581_2_alg».proof.Proof.Gen.KernelIdeal.Launch
import proofs.«102071_j3822520893581_2_alg».proof.Proof.Gen.KernelIdeal.Points
import proofs.«102071_j3822520893581_2_alg».proof.Proof.Gen.KernelIdeal.Frame
import proofs.«102071_j3822520893581_2_alg».proof.Proof.Gen.ReferenceIdeal
import proofs.«102071_j3822520893581_2_alg».proof.Proof.Gen.Pre_finite_inputs
import proofs.«102071_j3822520893581_2_alg».proof.Proof.Gen.KernelIdeal.Value
import proofs.«102071_j3822520893581_2_alg».proof.Proof.Gen.ReferenceIdeal.Run
import proofs.«102071_j3822520893581_2_alg».proof.Proof.Gen.ReferenceIdeal.Read
import proofs.«102071_j3822520893581_2_alg».proof.Proof.KernelAttend
import proofs.«102071_j3822520893581_2_alg».proof.Proof.RefAttend
import proofs.«102071_j3822520893581_2_alg».proof.Proof.RealInputs
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- The idealized kernel runs and leaves its arguments unchanged. -/
theorem frame_kernel_ideal : Cert.frame_KernelIdeal := fun m ρ _ => Cert.KernelIdeal.Gen.frame m ρ

/-- The idealized reference runs and leaves its arguments unchanged: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, both idealized programs end with the attention function of the arguments as their
    result: the kernel by its output array block by block, the reference by its operations read at an index. -/
theorem algebraic : Cert.algebraic_KernelIdeal_ReferenceIdeal := by
  intro m ρ m' ρ' hpre hagree
  have hr := fun c => Cert.RealInputs.real_of_pre _ _ _ _ (hpre c)
  refine ⟨fun c => Cert.Spec.attend (Cert.KernelIdeal.Attend.aP m c) (Cert.KernelIdeal.Attend.aQ m c)
    (Cert.KernelIdeal.Attend.aW m c) (Cert.KernelIdeal.Attend.aB m c), ?_, ?_⟩
  · exact (θ_run Cert.KernelIdeal.defs _ _).mono (fun r h c =>
      ⟨(h c).1.trans (Cert.KernelIdeal.Attend.result_array m c (hr c).1 (hr c).2.1 (hr c).2.2.1 (hr c).2.2.2), (h c).2⟩)
      (Cert.KernelIdeal.Value.run_blocks m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v17_eq, Cert.RefAttend.ref_is_attend,
      (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
